-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S10000 : Shape := ⟨1, ![10000]⟩
abbrev S128x512 : Shape := ⟨2, ![128, 512]⟩
abbrev S128x128 : Shape := ⟨2, ![128, 128]⟩
abbrev S128x256 : Shape := ⟨2, ![128, 256]⟩
abbrev S70x128 : Shape := ⟨2, ![70, 128]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S70x128 : S_.BroadcastsInDim S70x128 (![] : Fin 0 → Fin S70x128.rank)
  reducesTo_S70x128_S_d0_1 : S70x128.ReducesTo [0, 1] S_

variable [Facts]

def fn_part2 {F : FTy → Type} [FloatOps F] (main_arg8 : FVec F S70x128 .f32) (main_v33 : IVec S_ 1) : IVec S_ 1 :=
  let main_v34 : FVec F S70x128 .f32 := Host.absf main_arg8
  let main_cst_12 : FVec F S_ .f32 := constant S_ .f32 0x7F800000#32
  let main_v35 : FVec F S70x128 .f32 := broadcastInDim S70x128 ![] bcast_S_S70x128 main_cst_12
  let main_v36 : IVec S70x128 1 := cmpf .olt main_v34 main_v35
  let main_c_13 : IVec S_ 1 := constantI S_ 1 1#1
  let main_v37 : IVec S_ 1 := (fun x v => Host.reduce IntOp.andi x v reducesTo_S70x128_S_d0_1 h_S_) main_v36 main_c_13
  let main_v38 : IVec S_ 1 := andi main_v33 main_v37
  main_v38

def fn_part1 {F : FTy → Type} [FloatOps F] (main_arg5 : FVec F S128x128 .f32) (main_arg6 : FVec F S128x128 .f32) (main_arg7 : FVec F S128x256 .f32) (main_arg8 : FVec F S70x128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_v33

def fn {F : FTy → Type} [FloatOps F] (main_arg0 : FVec F S200000x512 .f32) (main_arg1 : FVec F S200000x512 .f32) (main_arg2 : IVec S10000 32) (main_arg3 : FVec F S128x512 .f32) (main_arg4 : FVec F S128x512 .f32) (main_arg5 : FVec F S128x128 .f32) (main_arg6 : FVec F S128x128 .f32) (main_arg7 : FVec F S128x256 .f32) (main_arg8 : FVec F S70x128 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S200000x512 .f32 := Host.absf main_arg1
  let main_cst_0 : FVec F S_ .f32 := constant S_ .f32 0x7F800000#32
  let main_v5 : FVec F S200000x512 .f32 := broadcastInDim S200000x512 ![] bcast_S_S200000x512 main_cst_0
  let main_v6 : IVec S200000x512 1 := cmpf .olt main_v4 main_v5
  let main_c_1 : IVec S_ 1 := constantI S_ 1 1#1
  let main_v7 : IVec S_ 1 := (fun x v => Host.reduce IntOp.andi x v reducesTo_S200000x512_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_arg6 main_arg7 main_arg8 main_v13 main_v16
-- ==== Kernel.lean ====
abbrev S200000x512 : Shape := ⟨2, ![200000, 512]⟩
abbrev S10000 : Shape := ⟨1, ![10000]⟩
abbrev S128x512 : Shape := ⟨2, ![128, 512]⟩
abbrev S128x128 : Shape := ⟨2, ![128, 128]⟩
abbrev S128x256 : Shape := ⟨2, ![128, 256]⟩
abbrev S70x128 : Shape := ⟨2, ![70, 128]⟩
abbrev S200000x70 : Shape := ⟨2, ![200000, 70]⟩
abbrev S2000x512 : Shape := ⟨2, ![2000, 512]⟩
abbrev S2000x70 : Shape := ⟨2, ![2000, 70]⟩
abbrev S2000 : Shape := ⟨1, ![2000]⟩
abbrev S2000x1 : Shape := ⟨2, ![2000, 1]⟩
abbrev S512x128 : Shape := ⟨2, ![512, 128]⟩
abbrev S2000x128 : Shape := ⟨2, ![2000, 128]⟩
abbrev S128x70 : Shape := ⟨2, ![128, 70]⟩
abbrev S_ : Shape := ⟨0, ![]⟩
abbrev S10000x1 : Shape := ⟨2, ![10000, 1]⟩
abbrev S10000x70 : Shape := ⟨2, ![10000, 70]⟩

abbrev nBuf : Space → Nat
  | .hbm => 19
  | .vmem => 12
  | .smem => 0
  | _ => 0

abbrev bufTy : (tb : Table) → Fin (tcTables nBuf tb) → BufTy
  | .hbm, ⟨0, _⟩ => ⟨S200000x512, .f32⟩
  | .hbm, ⟨1, _⟩ => ⟨S200000x512, .f32⟩
  | .hbm, ⟨2, _⟩ => ⟨S10000, .i32⟩
  | .hbm, ⟨3, _⟩ => ⟨S128x512, .f32⟩
  | .hbm, ⟨4, _⟩ => ⟨S128x512, .f32⟩
  | .hbm, ⟨5, _⟩ => ⟨S128x128, .f32⟩
  | .hbm, ⟨6, _⟩ => ⟨S128x128, .f32⟩
  | .hbm, ⟨7, _⟩ => ⟨S128x256, .f32⟩
  | .hbm, ⟨8, _⟩ => ⟨S70x128, .f32⟩
  | .hbm, ⟨9, _⟩ => ⟨S200000x70, .f32⟩
  | .hbm, ⟨10, _⟩ => ⟨S_, .i32⟩
  | .hbm, ⟨11, _⟩ => ⟨S10000, .i32⟩
  | .hbm, ⟨12, _⟩ => ⟨S10000, .i1⟩
  | .hbm, ⟨13, _⟩ => ⟨S_, .i32⟩
  | .hbm, ⟨14, _⟩ => ⟨S10000, .i32⟩
  | .hbm, ⟨15, _⟩ => ⟨S10000, .i32⟩
  | .hbm, ⟨16, _⟩ => ⟨S10000, .i32⟩
  | .hbm, ⟨17, _⟩ => ⟨S10000x1, .i32⟩
  | .hbm, ⟨18, _⟩ => ⟨S10000x70, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S128x256, .f32⟩
  | .local _ .vmem, ⟨9, _⟩ => ⟨S70x128, .f32⟩
  | .local _ .vmem, ⟨10, _⟩ => ⟨S2000x70, .f32⟩
  | .local _ .vmem, ⟨11, _⟩ => ⟨S2000x70, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S70x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x70 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  transposes_S128x512_p1_0_S512x128 : S128x512.Transposes [1, 0] S512x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  reduces_S2000x128_S2000 : S2000x128.Reduces [1] S2000
  broadcasts_S2000x1_S2000x128 : S2000x1.Broadcasts S2000x128
  inb_S70x128_S70x128_0_0 : ∀ a, (![0, 0] : Fin 2 → Nat) a + S70x128.size a ≤ S70x128.size a
  h_S70x128 : 0 < S70x128.numel
  transposes_S70x128_p1_0_S128x70 : S70x128.Transposes [1, 0] S128x70
  reduces_S2000x70_S2000 : S2000x70.Reduces [1] S2000
  broadcasts_S2000x1_S2000x70 : S2000x1.Broadcasts S2000x70
  inb_S2000x70_S2000x70_0_0 : ∀ a, (![0, 0] : Fin 2 → Nat) a + S2000x70.size a ≤ S2000x70.size a
  h_S2000x70 : 0 < S2000x70.numel
  bcast_S_S10000 : S_.BroadcastsInDim S10000 (![] : Fin 0 → Fin S10000.rank)
  bcast_S10000_S10000x1_0 : S10000.BroadcastsInDim S10000x1 (![0] : Fin 1 → Fin S10000x1.rank)
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  dot_S2000x128_S128x70_S2000x70_1_0_0_1_n_n_wf : DotDims.WF S2000x128 S128x70 S2000x70 [1] [0] [0] [1] [] []
  gather_S200000x70_S10000x1_S10000x70_1_0_n_n_0_1_170_wf : GatherDims.WF S200000x70 S10000x1 S10000x70 [1] [0] [] [0] [] 1 ![1, 70]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .f32 = 32 ∨ (Rect.block (s := S200000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S200000x512.size a
  hwx0_1 : ∀ i : grid0.Coords, EltTy.bits .f32 = 32 ∨ (Rect.block (s := S200000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S70x128.size a ≤ S70x128.size a
  hwx0_7 : ∀ i : grid0.Coords, EltTy.bits .f32 = 32 ∨ (Rect.block (s := S70x128) S70x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x70.size a ≤ S200000x70.size a
  hwx0_8 : ∀ i : grid0.Coords, EltTy.bits .f32 = 32 ∨ (Rect.block (s := S200000x70) S2000x70.size (cc0_transform_8 i) (hinb0_8 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x70_S2000x70_1_0_0_1_n_n : DotDims S2000x128 S128x70 S2000x70 where
  lhsContracting := [1]
  rhsContracting := [0]
  lhsNonContracting := [0]
  rhsNonContracting := [1]
  lhsBatch := []
  rhsBatch := []
  wf := dot_S2000x128_S128x70_S2000x70_1_0_0_1_n_n_wf
def gather_S200000x70_S10000x1_S10000x70_1_0_n_n_0_1_170 : GatherDims S200000x70 S10000x1 S10000x70 where
  offsetDims := [1]
  collapsedSliceDims := [0]
  operandBatchingDims := []
  startIndicesBatchingDims := []
  startIndexMap := [0]
  indexVectorDim := 1
  sliceSizes := ![1, 70]
  wf := gather_S200000x70_S10000x1_S10000x70_1_0_n_n_0_1_170_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S70x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S2000x70.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x512 : Shape := ⟨2, ![200000, 512]⟩
abbrev S10000 : Shape := ⟨1, ![10000]⟩
abbrev S128x512 : Shape := ⟨2, ![128, 512]⟩
abbrev S128x128 : Shape := ⟨2, ![128, 128]⟩
abbrev S128x256 : Shape := ⟨2, ![128, 256]⟩
abbrev S70x128 : Shape := ⟨2, ![70, 128]⟩
abbrev S_ : Shape := ⟨0, ![]⟩
abbrev S200000 : Shape := ⟨1, ![200000]⟩
abbrev S200000x1 : Shape := ⟨2, ![200000, 1]⟩
abbrev S512x128 : Shape := ⟨2, ![512, 128]⟩
abbrev S200000x128 : Shape := ⟨2, ![200000, 128]⟩
abbrev S200000x256 : Shape := ⟨2, ![200000, 256]⟩
abbrev S256x128 : Shape := ⟨2, ![256, 128]⟩
abbrev S128x70 : Shape := ⟨2, ![128, 70]⟩
abbrev S200000x70 : Shape := ⟨2, ![200000, 70]⟩
abbrev S10000x1 : Shape := ⟨2, ![10000, 1]⟩
abbrev S10000x70 : Shape := ⟨2, ![10000, 70]⟩

abbrev nBuf : Space → Nat
  | .hbm => 120
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S200000x512, .f32⟩
  | .hbm, ⟨2, _⟩ => ⟨S10000, .i32⟩
  | .hbm, ⟨3, _⟩ => ⟨S128x512, .f32⟩
  | .hbm, ⟨4, _⟩ => ⟨S128x512, .f32⟩
  | .hbm, ⟨5, _⟩ => ⟨S128x128, .f32⟩
  | .hbm, ⟨6, _⟩ => ⟨S128x128, .f32⟩
  | .hbm, ⟨7, _⟩ => ⟨S128x256, .f32⟩
  | .hbm, ⟨8, _⟩ => ⟨S70x128, .f32⟩
  | .hbm, ⟨9, _⟩ => ⟨S200000x512, .f32⟩
  | .hbm, ⟨10, _⟩ => ⟨S_, .f32⟩
  | .hbm, ⟨11, _⟩ => ⟨S200000, .f32⟩
  | .hbm, ⟨12, _⟩ => ⟨S200000x1, .f32⟩
  | .hbm, ⟨13, _⟩ => ⟨S200000x1, .f32⟩
  | .hbm, ⟨14, _⟩ => ⟨S_, .f32⟩
  | .hbm, ⟨15, _⟩ => ⟨S200000x1, .f32⟩
  | .hbm, ⟨16, _⟩ => ⟨S200000x1, .i1⟩
  | .hbm, ⟨17, _⟩ => ⟨S_, .f32⟩
  | .hbm, ⟨18, _⟩ => ⟨S200000x1, .f32⟩
  | .hbm, ⟨19, _⟩ => ⟨S200000x1, .f32⟩
  | .hbm, ⟨20, _⟩ => ⟨S_, .f32⟩
  | .hbm, ⟨21, _⟩ => ⟨S_, .f32⟩
  | .hbm, ⟨22, _⟩ => ⟨S200000x1, .f32⟩
  | .hbm, ⟨23, _⟩ => ⟨S200000x1, .f32⟩
  | .hbm, ⟨24, _⟩ => ⟨S200000x512, .f32⟩
  | .hbm, ⟨25, _⟩ => ⟨S200000x512, .f32⟩
  | .hbm, ⟨26, _⟩ => ⟨S200000x512, .f32⟩
  | .hbm, ⟨27, _⟩ => ⟨S_, .f32⟩
  | .hbm, ⟨28, _⟩ => ⟨S200000, .f32⟩
  | .hbm, ⟨29, _⟩ => ⟨S200000x1, .f32⟩
  | .hbm, ⟨30, _⟩ => ⟨S200000x1, .f32⟩
  | .hbm, ⟨31, _⟩ => ⟨S_, .f32⟩
  | .hbm, ⟨32, _⟩ => ⟨S200000x1, .f32⟩
  | .hbm, ⟨33, _⟩ => ⟨S200000x1, .i1⟩
  | .hbm, ⟨34, _⟩ => ⟨S_, .f32⟩
  | .hbm, ⟨35, _⟩ => ⟨S200000x1, .f32⟩
  | .hbm, ⟨36, _⟩ => ⟨S200000x1, .f32⟩
  | .hbm, ⟨37, _⟩ => ⟨S_, .f32⟩
  | .hbm, ⟨38, _⟩ => ⟨S_, .f32⟩
  | .hbm, ⟨39, _⟩ => ⟨S200000x1, .f32⟩
  | .hbm, ⟨40, _⟩ => ⟨S200000x1, .f32⟩
  | .hbm, ⟨41, _⟩ => ⟨S200000x512, .f32⟩
  | .hbm, ⟨42, _⟩ => ⟨S200000x512, .f32⟩
  | .hbm, ⟨43, _⟩ => ⟨S512x128, .f32⟩
  | .hbm, ⟨44, _⟩ => ⟨S200000x128, .f32⟩
  | .hbm, ⟨45, _⟩ => ⟨S_, .f32⟩
  | .hbm, ⟨46, _⟩ => ⟨S200000x128, .f32⟩
  | .hbm, ⟨47, _⟩ => ⟨S200000x128, .f32⟩
  | .hbm, ⟨48, _⟩ => ⟨S512x128, .f32⟩
  | .hbm, ⟨49, _⟩ => ⟨S200000x128, .f32⟩
  | .hbm, ⟨50, _⟩ => ⟨S_, .f32⟩
  | .hbm, ⟨51, _⟩ => ⟨S200000x128, .f32⟩
  | .hbm, ⟨52, _⟩ => ⟨S200000x128, .f32⟩
  | .hbm, ⟨53, _⟩ => ⟨S128x128, .f32⟩
  | .hbm, ⟨54, _⟩ => ⟨S200000x128, .f32⟩
  | .hbm, ⟨55, _⟩ => ⟨S128x128, .f32⟩
  | .hbm, ⟨56, _⟩ => ⟨S200000x128, .f32⟩
  | .hbm, ⟨57, _⟩ => ⟨S200000x256, .f32⟩
  | .hbm, ⟨58, _⟩ => ⟨S256x128, .f32⟩
  | .hbm, ⟨59, _⟩ => ⟨S200000x128, .f32⟩
  | .hbm, ⟨60, _⟩ => ⟨S200000x128, .f32⟩
  | .hbm, ⟨61, _⟩ => ⟨S200000x128, .f32⟩
  | .hbm, ⟨62, _⟩ => ⟨S_, .f32⟩
  | .hbm, ⟨63, _⟩ => ⟨S200000x128, .f32⟩
  | .hbm, ⟨64, _⟩ => ⟨S200000x128, .f32⟩
  | .hbm, ⟨65, _⟩ => ⟨S_, .f32⟩
  | .hbm, ⟨66, _⟩ => ⟨S200000x128, .f32⟩
  | .hbm, ⟨67, _⟩ => ⟨S200000x128, .f32⟩
  | .hbm, ⟨68, _⟩ => ⟨S_, .f32⟩
  | .hbm, ⟨69, _⟩ => ⟨S200000x128, .f32⟩
  | .hbm, ⟨70, _⟩ => ⟨S200000x128, .f32⟩
  | .hbm, ⟨71, _⟩ => ⟨S200000x128, .f32⟩
  | .hbm, ⟨72, _⟩ => ⟨S200000x128, .f32⟩
  | .hbm, ⟨73, _⟩ => ⟨S200000x128, .f32⟩
  | .hbm, ⟨74, _⟩ => ⟨S200000x128, .f32⟩
  | .hbm, ⟨75, _⟩ => ⟨S_, .f32⟩
  | .hbm, ⟨76, _⟩ => ⟨S200000, .f32⟩
  | .hbm, ⟨77, _⟩ => ⟨S200000x1, .f32⟩
  | .hbm, ⟨78, _⟩ => ⟨S200000x1, .f32⟩
  | .hbm, ⟨79, _⟩ => ⟨S_, .f32⟩
  | .hbm, ⟨80, _⟩ => ⟨S200000x1, .f32⟩
  | .hbm, ⟨81, _⟩ => ⟨S200000x1, .i1⟩
  | .hbm, ⟨82, _⟩ => ⟨S_, .f32⟩
  | .hbm, ⟨83, _⟩ => ⟨S200000x1, .f32⟩
  | .hbm, ⟨84, _⟩ => ⟨S200000x1, .f32⟩
  | .hbm, ⟨85, _⟩ => ⟨S_, .f32⟩
  | .hbm, ⟨86, _⟩ => ⟨S_, .f32⟩
  | .hbm, ⟨87, _⟩ => ⟨S200000x1, .f32⟩
  | .hbm, ⟨88, _⟩ => ⟨S200000x1, .f32⟩
  | .hbm, ⟨89, _⟩ => ⟨S200000x128, .f32⟩
  | .hbm, ⟨90, _⟩ => ⟨S200000x128, .f32⟩
  | .hbm, ⟨91, _⟩ => ⟨S128x70, .f32⟩
  | .hbm, ⟨92, _⟩ => ⟨S200000x70, .f32⟩
  | .hbm, ⟨93, _⟩ => ⟨S_, .f32⟩
  | .hbm, ⟨94, _⟩ => ⟨S200000x70, .f32⟩
  | .hbm, ⟨95, _⟩ => ⟨S200000x70, .f32⟩
  | .hbm, ⟨96, _⟩ => ⟨S_, .f32⟩
  | .hbm, ⟨97, _⟩ => ⟨S200000, .f32⟩
  | .hbm, ⟨98, _⟩ => ⟨S_, .f32⟩
  | .hbm, ⟨99, _⟩ => ⟨S200000, .f32⟩
  | .hbm, ⟨100, _⟩ => ⟨S200000, .f32⟩
  | .hbm, ⟨101, _⟩ => ⟨S200000x1, .f32⟩
  | .hbm, ⟨102, _⟩ => ⟨S200000x70, .f32⟩
  | .hbm, ⟨103, _⟩ => ⟨S200000x70, .f32⟩
  | .hbm, ⟨104, _⟩ => ⟨S200000x70, .f32⟩
  | .hbm, ⟨105, _⟩ => ⟨S_, .f32⟩
  | .hbm, ⟨106, _⟩ => ⟨S200000, .f32⟩
  | .hbm, ⟨107, _⟩ => ⟨S200000x1, .f32⟩
  | .hbm, ⟨108, _⟩ => ⟨S200000x1, .f32⟩
  | .hbm, ⟨109, _⟩ => ⟨S200000x70, .f32⟩
  | .hbm, ⟨110, _⟩ => ⟨S200000x70, .f32⟩
  | .hbm, ⟨111, _⟩ => ⟨S_, .i32⟩
  | .hbm, ⟨112, _⟩ => ⟨S10000, .i32⟩
  | .hbm, ⟨113, _⟩ => ⟨S10000, .i1⟩
  | .hbm, ⟨114, _⟩ => ⟨S_, .i32⟩
  | .hbm, ⟨115, _⟩ => ⟨S10000, .i32⟩
  | .hbm, ⟨116, _⟩ => ⟨S10000, .i32⟩
  | .hbm, ⟨117, _⟩ => ⟨S10000, .i32⟩
  | .hbm, ⟨118, _⟩ => ⟨S10000x1, .i32⟩
  | .hbm, ⟨119, _⟩ => ⟨S10000x70, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_call1_v0 : Ref sig .tc := ⟨.hbm, 21, rfl⟩
abbrev main_call1_v1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_call2_v2 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_cst_3 : Ref sig .tc := ⟨.hbm, 34, rfl⟩
abbrev main_v11 : Ref sig .tc := ⟨.hbm, 35, rfl⟩
abbrev main_v12 : Ref sig .tc := ⟨.hbm, 36, rfl⟩
abbrev main_cst_4 : Ref sig .tc := ⟨.hbm, 37, rfl⟩
abbrev main_call3_v0 : Ref sig .tc := ⟨.hbm, 38, rfl⟩
abbrev main_call3_v1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call4_cst : Ref sig .tc := ⟨.hbm, 45, rfl⟩
abbrev main_call4_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call5_cst : Ref sig .tc := ⟨.hbm, 50, rfl⟩
abbrev main_call5_v0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_call6_v0 : Ref sig .tc := ⟨.hbm, 74, rfl⟩
abbrev main_call6_cst : Ref sig .tc := ⟨.hbm, 75, rfl⟩
abbrev main_call6_v1 : Ref sig .tc := ⟨.hbm, 76, rfl⟩
abbrev main_call6_v2 : Ref sig .tc := ⟨.hbm, 77, rfl⟩
abbrev main_v40 : Ref sig .tc := ⟨.hbm, 78, rfl⟩
abbrev main_cst_8 : Ref sig .tc := ⟨.hbm, 79, rfl⟩
abbrev main_v41 : Ref sig .tc := ⟨.hbm, 80, rfl⟩
abbrev main_v42 : Ref sig .tc := ⟨.hbm, 81, rfl⟩
abbrev main_cst_9 : Ref sig .tc := ⟨.hbm, 82, rfl⟩
abbrev main_v43 : Ref sig .tc := ⟨.hbm, 83, rfl⟩
abbrev main_v44 : Ref sig .tc := ⟨.hbm, 84, rfl⟩
abbrev main_cst_10 : Ref sig .tc := ⟨.hbm, 85, rfl⟩
abbrev main_call7_v0 : Ref sig .tc := ⟨.hbm, 86, rfl⟩
abbrev main_call7_v1 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call8_cst : Ref sig .tc := ⟨.hbm, 93, rfl⟩
abbrev main_call8_v0 : Ref sig .tc := ⟨.hbm, 94, rfl⟩
abbrev main_v50 : Ref sig .tc := ⟨.hbm, 95, rfl⟩
abbrev main_call9_cst : Ref sig .tc := ⟨.hbm, 96, rfl⟩
abbrev main_call9_v0 : Ref sig .tc := ⟨.hbm, 97, rfl⟩
abbrev main_call9_cst_0 : Ref sig .tc := ⟨.hbm, 98, rfl⟩
abbrev main_call9_v1 : Ref sig .tc := ⟨.hbm, 99, rfl⟩
abbrev main_call9_v2 : Ref sig .tc := ⟨.hbm, 100, rfl⟩
abbrev main_call9_v3 : Ref sig .tc := ⟨.hbm, 101, rfl⟩
abbrev main_call9_v4 : Ref sig .tc := ⟨.hbm, 102, rfl⟩
abbrev main_call9_v5 : Ref sig .tc := ⟨.hbm, 103, rfl⟩
abbrev main_call9_v6 : Ref sig .tc := ⟨.hbm, 104, rfl⟩
abbrev main_call9_cst_1 : Ref sig .tc := ⟨.hbm, 105, rfl⟩
abbrev main_call9_v7 : Ref sig .tc := ⟨.hbm, 106, rfl⟩
abbrev main_call9_v8 : Ref sig .tc := ⟨.hbm, 107, rfl⟩
abbrev main_call9_v9 : Ref sig .tc := ⟨.hbm, 108, rfl⟩
abbrev main_call9_v10 : Ref sig .tc := ⟨.hbm, 109, rfl⟩
abbrev main_v51 : Ref sig .tc := ⟨.hbm, 110, rfl⟩
abbrev main_c : Ref sig .tc := ⟨.hbm, 111, rfl⟩
abbrev main_v52 : Ref sig .tc := ⟨.hbm, 112, rfl⟩
abbrev main_v53 : Ref sig .tc := ⟨.hbm, 113, rfl⟩
abbrev main_c_11 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩

abbrev nD : Nat := 1
abbrev τ : Topo := Topo.v7x

variable {F : FTy → Type} [FloatOps F]

class Facts₀ : Prop where
  reducesTo_S200000x512_S200000_d1 : S200000x512.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x512_0_1 : S200000x1.BroadcastsInDim S200000x512 (![0, 1] : Fin 2 → Fin S200000x512.rank)
  transposes_S128x512_S512x128_1_0 : S128x512.Transposes [1, 0] S512x128
  bcast_S_S200000x128 : S_.BroadcastsInDim S200000x128 (![] : Fin 0 → Fin S200000x128.rank)
  transposes_S128x128_S128x128_1_0 : S128x128.Transposes [1, 0] S128x128
  concatenates_S200000x128_S200000x128_S200000x256_d1 : Shape.Concatenates [S200000x128, S200000x128] S200000x256 1
  transposes_S128x256_S256x128_1_0 : S128x256.Transposes [1, 0] S256x128
  reducesTo_S200000x128_S200000_d1 : S200000x128.ReducesTo [1] S200000
  bcast_S200000x1_S200000x128_0_1 : S200000x1.BroadcastsInDim S200000x128 (![0, 1] : Fin 2 → Fin S200000x128.rank)
  transposes_S70x128_S128x70_1_0 : S70x128.Transposes [1, 0] S128x70
  bcast_S_S200000x70 : S_.BroadcastsInDim S200000x70 (![] : Fin 0 → Fin S200000x70.rank)
  reducesTo_S200000x70_S200000_d1 : S200000x70.ReducesTo [1] S200000
  bcast_S_S200000 : S_.BroadcastsInDim S200000 (![] : Fin 0 → Fin S200000.rank)
  bcast_S200000x1_S200000x70_0_1 : S200000x1.BroadcastsInDim S200000x70 (![0, 1] : Fin 2 → Fin S200000x70.rank)
  bcast_S_S10000 : S_.BroadcastsInDim S10000 (![] : Fin 0 → Fin S10000.rank)
  bcast_S10000_S10000x1_0 : S10000.BroadcastsInDim S10000x1 (![0] : Fin 1 → Fin S10000x1.rank)
  dot_S200000x512_S512x128_S200000x128_1_0_0_1_n_n_wf : DotDims.WF S200000x512 S512x128 S200000x128 [1] [0] [0] [1] [] []
  dot_S200000x128_S128x128_S200000x128_1_0_0_1_n_n_wf : DotDims.WF S200000x128 S128x128 S200000x128 [1] [0] [0] [1] [] []
  dot_S200000x256_S256x128_S200000x128_1_0_0_1_n_n_wf : DotDims.WF S200000x256 S256x128 S200000x128 [1] [0] [0] [1] [] []
  dot_S200000x128_S128x70_S200000x70_1_0_0_1_n_n_wf : DotDims.WF S200000x128 S128x70 S200000x70 [1] [0] [0] [1] [] []
  gather_S200000x70_S10000x1_S10000x70_1_0_n_n_0_1_170_wf : GatherDims.WF S200000x70 S10000x1 S10000x70 [1] [0] [] [0] [] 1 ![1, 70]

variable [Facts₀]

def dot_S200000x512_S512x128_S200000x128_1_0_0_1_n_n : DotDims S200000x512 S512x128 S200000x128 where
  lhsContracting := [1]
  rhsContracting := [0]
  lhsNonContracting := [0]
  rhsNonContracting := [1]
  lhsBatch := []
  rhsBatch := []
  wf := dot_S200000x512_S512x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x70_S200000x70_1_0_0_1_n_n : DotDims S200000x128 S128x70 S200000x70 where
  lhsContracting := [1]
  rhsContracting := [0]
  lhsNonContracting := [0]
  rhsNonContracting := [1]
  lhsBatch := []
  rhsBatch := []
  wf := dot_S200000x128_S128x70_S200000x70_1_0_0_1_n_n_wf
def gather_S200000x70_S10000x1_S10000x70_1_0_n_n_0_1_170 : GatherDims S200000x70 S10000x1 S10000x70 where
  offsetDims := [1]
  collapsedSliceDims := [0]
  operandBatchingDims := []
  startIndicesBatchingDims := []
  startIndexMap := [0]
  indexVectorDim := 1
  sliceSizes := ![1, 70]
  wf := gather_S200000x70_S10000x1_S10000x70_1_0_n_n_0_1_170_wf

class Facts : Prop extends Facts₀ where

variable [Facts]
-- ==== Proof.RowSpec.lean ====
/-
  The function both programs compute, one row at a time.

  Every entry of the result depends on ONE row of each of the two feature arrays and on the weight matrices: a row
  is scaled to unit length (by `1 / ‖v‖` when the length is positive, by `0` otherwise), pushed through a linear
  layer and clipped at zero; the two hidden rows so obtained are each pushed through one more matrix, the two
  results are combined by a third matrix cut in two halves, and the logistic function of that sum weighs the two
  hidden rows against each other; the blend is scaled to unit length again, pushed through the last matrix, clipped
  at zero, and the logarithm of its softmax is taken.

  The two programs spell three steps differently, and the laws that join the spellings are here too: a sum over
  `n + m` terms is the sum of its first `n` and its last `m` terms; `0 - z` is `-z`; and the largest entry of a
  row, taken from a starting value, is not changed by taking the maximum with that starting value once more. All
  three hold on the whole of the extended reals, so no finiteness is needed.
-/
import Idealize.ShloMosaic.PureOps.Ideal
import Idealize.ShloMosaic.PureOps.Ideal.Laws
import Mathlib.Data.Finset.Fold

noncomputable section

open scoped BigOperators

namespace Cert.RowSpec

open Idealize.ShloMosaic

/-- The three float words the programs use, as extended reals. -/
abbrev zero : EReal := Ideal.ofBits .f32 0x00000000#32
abbrev one : EReal := Ideal.ofBits .f32 0x3F800000#32
abbrev negInf : EReal := Ideal.ofBits .f32 0xFF800000#32

/-- The inner product of two rows. -/
def dot {n : ℕ} (a b : Fin n → EReal) : EReal := ∑ k, a k * b k

/-- The length of a row. -/
def norm {n : ℕ} (v : Fin n → EReal) : EReal := Ideal.sqrt (∑ k, v k * v k)

/-- The factor that brings a row to unit length: the reciprocal of its length when that is positive, else zero. -/
def scale {n : ℕ} (v : Fin n → EReal) : EReal :=
  Scalar.select (Ideal.cmp .ogt (norm v) zero) (Ideal.div one (norm v)) zero

/-- A row brought to unit length. -/
def unit {n : ℕ} (v : Fin n → EReal) (k : Fin n) : EReal := v k * scale v

/-- Clipping at zero. -/
def relu (x : EReal) : EReal := max x zero

/-- A linear layer on the unit row, clipped at zero: entry `j` pairs the row with row `j` of the matrix. -/
def layer {n m : ℕ} (v : Fin n → EReal) (W : Fin m → Fin n → EReal) (j : Fin m) : EReal := relu (dot (unit v) (W j))

/-- The logistic function, spelt with a negation. -/
def logistic (z : EReal) : EReal := Ideal.div one (one + Ideal.exp (-z))

/-- The largest entry of a row, from minus infinity. -/
def rowMax {n : ℕ} (z : Fin n → EReal) : EReal := (Finset.univ : Finset (Fin n)).fold max negInf z

/-- The logarithm of the softmax of a row. -/
def logSoftmax {n : ℕ} (z : Fin n → EReal) (q : Fin n) : EReal :=
  (z q - rowMax z) - Ideal.log (∑ j, Ideal.exp (z j - rowMax z))

/-- The blend of the two hidden rows: `(1 - g) · a + g · b` entry by entry. -/
def blend {n : ℕ} (g a b : Fin n → EReal) (j : Fin n) : EReal := (one - g j) * a j + g j * b j

/-- The gate: the logistic function of the two pushed-through hidden rows paired with the two halves of the
    combining matrix and added. -/
def gate {h : ℕ} (a b : Fin h → EReal) (G1 G2 TA TB : Fin h → Fin h → EReal) (j : Fin h) : EReal :=
  logistic (dot (fun k => dot a (G1 k)) (TA j) + dot (fun k => dot b (G2 k)) (TB j))

/-- One row of the result from one row of each feature array and the weights. -/
def out {f h c : ℕ} (x s : Fin f → EReal) (W0 W1 : Fin h → Fin f → EReal) (G1 G2 TA TB : Fin h → Fin h → EReal)
    (Wc : Fin c → Fin h → EReal) : Fin c → EReal :=
  logSoftmax fun q => layer (blend (gate (layer x W0) (layer s W1) G1 G2 TA TB) (layer x W0) (layer s W1)) Wc q

/-! ## The three laws -/

/-- Zero less `z` is the negative of `z`, on every extended real. -/
theorem zero_sub_eq_neg (z : EReal) : zero - z = -z := by
  show Ideal.ofBits .f32 0x00000000#32 - z = -z
  rw [Ideal.ofBits_zero_f32, zero_sub]

/-- Taking the maximum with the starting value once more does not change a fold of `max` from that value. -/
theorem max_fold_max {n : ℕ} (b : EReal) (z : Fin n → EReal) :
    max b ((Finset.univ : Finset (Fin n)).fold max b z) = (Finset.univ : Finset (Fin n)).fold max b z :=
  max_eq_right ((Finset.le_fold_max b).2 (Or.inl le_rfl))

/-- A sum over `n + m` terms is the sum of the first `n` and the last `m`: pairing a row that is two rows laid end to
    end with a matrix row is pairing each piece with its half of the matrix row, and adding. -/
theorem dot_append {n m : ℕ} (a : Fin n → EReal) (b : Fin m → EReal) (t : Fin (n + m) → EReal) (u : Fin (n + m) → EReal)
    (hl : ∀ k : Fin n, u (Fin.castAdd m k) = a k) (hr : ∀ k : Fin m, u (Fin.natAdd n k) = b k) :
    ∑ k, u k * t k = dot a (fun k => t (Fin.castAdd m k)) + dot b (fun k => t (Fin.natAdd n k)) := by
  rw [Fin.sum_univ_add]
  unfold dot
  congr 1
  · exact Finset.sum_congr rfl fun k _ => by rw [hl]
  · exact Finset.sum_congr rfl fun k _ => by rw [hr]

end Cert.RowSpec

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibRowOps.lean ====
/-
  Rows of a matrix and slabs of a rank-3 array, read at an entry.

  * The largest entry of each row of an `[m, n]` array, taken from a starting word: at row `p` it is the fold of
    `max` over the `n` entries of that row; the same for the host's reduction with a maximum body from an initial
    value.
  * An `[a, b]` array cast to `[a, b, 1]` reads, at `(p, k, u)`, the entry `(p, k)`; spread over `[a, b, c]`
    it reads, at `(p, k, j)`, the entry `(p, k, 0)`: a per-row, per-column scalar laid along the last axis.
  * A sum of an `[a, b, c]` array along its middle axis reads, at `(p, j)`, the sum over `k` of the entries
    `(p, k, j)`.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- Putting the dropped column coordinate `k` back into the row index `p` gives the entry `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float maximum along the second axis from the word `acc`, read at row `p`: the fold of `max` over that
    row's entries, from the word's value. -/
theorem rowMax_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) src acc h hφ hacc (ix1 p)
      = (Finset.univ : Finset (Fin n)).fold max (Ideal.ofBits .f32 acc) (fun k => src (ix2 p k)) := by
  refine (Ideal.multiReduction_maximumf_single src acc h hφ hacc (ix1 p)).trans ?_
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduction with a maximum body along the second axis, read at row `p`: the fold of `max` over that
    row's entries, from the initial value. -/
theorem hostRowMax_apply {m n : ℕ} {u : Shape} (x : (⟨2, ![m, n]⟩ : Shape).Idx → Ideal .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (p : Fin m) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- An `[a, b]` array cast to `[a, b, 1]` reads, at `(p, k, u)`, the array at `(p, k)`: both positions are the
    same one in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, b, 1]` array spread over `[a, b, c]` reads, at `(p, k, j)`, the array at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (j : Fin c) :
    broadcastTo ⟨3, ![a, b, c]⟩ v h (ix3 p k j) = v (ix3 p k (0 : Fin 1)) := by
  refine broadcastTo_apply v h (ix3 p k j) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Putting the dropped middle coordinate `k` back into `(p, j)` gives the entry `(p, k, j)`. -/
theorem lift_mid {a b c : ℕ} (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- A float sum along the middle axis from the zero word, read at `(p, j)`: the sum over `k` of the entries
    `(p, k, j)`, on the extended reals. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (j : Fin c) :
    multiReduction .add [1] (⟨2, ![a, c]⟩ : Shape) src acc h hφ hacc (ix2 p j) = ∑ k : Fin b, src (ix3 p k j) := by
  refine (Ideal.multiReduction_add_single src acc h hφ hacc (ix2 p j)).trans ?_
  exact Finset.sum_congr rfl fun k _ => congrArg src (lift_mid h p j k)

end Cert.LibRowOps

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelOps.lean ====
/-
  The kernel's compound steps read at an entry, at the ideal values and over shapes with free extents.

  Each step below looks at ONE row of its operand: the factor that scales a row to unit length, kept as a column
  and spread back over the row; a matrix product whose right operand is a transposed matrix, so that entry `(p, j)`
  pairs row `p` of the left operand with row `j` of the matrix; and the logarithm of the softmax of a row, built
  from the row's maximum and the row sum of exponentials, each kept as a column and spread back.
-/
import proofs.«134171_j69106023793434_1_alg».proof.Proof.RowSpec
import proofs.«134171_j69106023793434_1_alg».proof.Proof.LibKeepdims
import proofs.«134171_j69106023793434_1_alg».proof.Proof.LibRowOps
import proofs.«134171_j69106023793434_1_alg».proof.Proof.LibMatmulPlain
import Idealize.ShloMosaic.Lib.ValueLayout

noncomputable section

open scoped BigOperators

namespace Cert.KernelOps

open Idealize.ShloMosaic Idealize.ShloMosaic.ValueIdx Cert.RowSpec

/-- The row lengths of an `[a, b]` array kept as a column: at `(p, u)` the length of row `p`. -/
theorem norm_column_apply {a b : ℕ} (x : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (p : Fin a) (u : Fin 1) :
    sqrt (shapeCast ⟨2, ![a, 1]⟩ (multiReduction .add [1] (⟨1, ![a]⟩ : Shape) (mulf x x) 0x00000000#32 h hφ hacc) hcast) (ix2 p u)
      = norm (fun k => x (ix2 p k)) := by
  show Ideal.sqrt (shapeCast ⟨2, ![a, 1]⟩ (multiReduction .add [1] (⟨1, ![a]⟩ : Shape) (mulf x x) 0x00000000#32 h hφ hacc) hcast (ix2 p u)) = _
  rw [LibKeepdims.shapeCast_a_a1_apply _ hcast p u, LibKeepdims.rowSum_apply (mulf x x) h hφ hacc p]
  rfl

/-- A column of comparisons, quotients and zeros chosen entry by entry and spread over `[a, c]`: at `(p, q)` the
    choice made in row `p`. -/
theorem select_spread_apply {a c : ℕ} (cnd : IVec ⟨2, ![a, 1]⟩ 1) (t e : FVec Ideal ⟨2, ![a, 1]⟩ .f32)
    (hbc : (⟨2, ![a, 1]⟩ : Shape).Broadcasts ⟨2, ![a, c]⟩) (p : Fin a) (q : Fin c) :
    broadcastTo ⟨2, ![a, c]⟩ (select cnd t e) hbc (ix2 p q)
      = Scalar.select (cnd (ix2 p (0 : Fin 1))) (t (ix2 p (0 : Fin 1))) (e (ix2 p (0 : Fin 1))) :=
  LibKeepdims.broadcastTo_a1_ab_apply _ hbc p q

/-- A row brought to unit length the kernel's way — the row times its scaling factor, the factor computed as a
    column (the comparison of the row's length with zero choosing between its reciprocal and zero) and spread over the
    row — reads at `(p, k)` entry `k` of row `p` brought to unit length. -/
theorem unit_spread_apply {a b : ℕ} (x : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, b]⟩)
    (p : Fin a) (k : Fin b) :
    mulf x (broadcastTo ⟨2, ![a, b]⟩
      (select (cmpf .ogt (sqrt (shapeCast ⟨2, ![a, 1]⟩ (multiReduction .add [1] (⟨1, ![a]⟩ : Shape) (mulf x x) 0x00000000#32 h hφ hacc) hcast))
          (broadcast ⟨2, ![a, 1]⟩ (Scalar.ofBits .f32 0x00000000#32)))
        (divf (broadcast ⟨2, ![a, 1]⟩ (Scalar.ofBits .f32 0x3F800000#32))
          (sqrt (shapeCast ⟨2, ![a, 1]⟩ (multiReduction .add [1] (⟨1, ![a]⟩ : Shape) (mulf x x) 0x00000000#32 h hφ hacc) hcast)))
        (broadcast ⟨2, ![a, 1]⟩ (Scalar.ofBits .f32 0x00000000#32))) hbc) (ix2 p k)
      = unit (fun k => x (ix2 p k)) k := by
  unfold unit scale
  refine congrArg (x (ix2 p k) * ·) ?_
  refine (select_spread_apply _ _ _ hbc p k).trans ?_
  have hn := norm_column_apply x h hφ hacc hcast p (0 : Fin 1)
  show Scalar.select (Ideal.cmp .ogt (sqrt (shapeCast ⟨2, ![a, 1]⟩ (multiReduction .add [1] (⟨1, ![a]⟩ : Shape) (mulf x x) 0x00000000#32 h hφ hacc) hcast) (ix2 p (0 : Fin 1))) zero)
      (Ideal.div one (sqrt (shapeCast ⟨2, ![a, 1]⟩ (multiReduction .add [1] (⟨1, ![a]⟩ : Shape) (mulf x x) 0x00000000#32 h hφ hacc) hcast) (ix2 p (0 : Fin 1)))) zero = _
  rw [hn]

/-- A product with a transposed matrix into the zero accumulator: entry `(p, j)` pairs row `p` of the left operand
    with row `j` of the matrix (a change of float format on the way in is the identity). -/
theorem matmul_transposed_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (L : FVec Ideal ⟨2, ![M, K]⟩ .f32) (W : FVec Ideal ⟨2, ![N, K]⟩ .f32) (hb : FTy.bits .bf16 < FTy.bits .f32)
    (ht : (⟨2, ![N, K]⟩ : Shape).Transposes [1, 0] ⟨2, ![K, N]⟩) (p : Fin M) (j : Fin N) :
    FloatOps.matmul d none (truncf .bf16 L hb) (transpose ⟨2, ![K, N]⟩ [1, 0] (truncf .bf16 W hb) ht)
        (constant ⟨2, ![M, N]⟩ .f32 0x00000000#32) (ix2 p j)
      = dot (fun k => L (ix2 p k)) (fun k => W (ix2 j k)) := by
  refine (LibMatmulPlain.matmul_zero_apply d hlc hrc hln hrn hlb hrb none _ _ p j).trans ?_
  unfold dot
  refine Finset.sum_congr rfl fun k _ => ?_
  rw [transpose_ix2_apply _ ht k j]
  rfl

/-- The gate the kernel's way: each hidden row is pushed through its own transposed matrix, each result through its
    half of the combining matrix (transposed), the two are added, and the logistic function is spelt
    `1 / (1 + exp (0 - z))`. At `(p, j)` this is the gate of row `p` of the two hidden arrays. -/
theorem gate_apply {M H : ℕ} (d : DotDims ⟨2, ![M, H]⟩ ⟨2, ![H, H]⟩ ⟨2, ![M, H]⟩)
    (hlc : d.lhsContracting = [1]) (hrc : d.rhsContracting = [0]) (hln : d.lhsNonContracting = [0])
    (hrn : d.rhsNonContracting = [1]) (hlb : d.lhsBatch = []) (hrb : d.rhsBatch = [])
    (A B : FVec Ideal ⟨2, ![M, H]⟩ .f32) (g1 g2 sA sB : FVec Ideal ⟨2, ![H, H]⟩ .f32) (hb : FTy.bits .bf16 < FTy.bits .f32)
    (ht : (⟨2, ![H, H]⟩ : Shape).Transposes [1, 0] ⟨2, ![H, H]⟩) (p : Fin M) (j : Fin H) :
    divf (broadcast ⟨2, ![M, H]⟩ (Scalar.ofBits .f32 0x3F800000#32))
      (addf (broadcast ⟨2, ![M, H]⟩ (Scalar.ofBits .f32 0x3F800000#32))
        (exp (subf (broadcast ⟨2, ![M, H]⟩ (Scalar.ofBits .f32 0x00000000#32))
          (addf
            (FloatOps.matmul d none
              (truncf .bf16 (FloatOps.matmul d none (truncf .bf16 A hb) (transpose ⟨2, ![H, H]⟩ [1, 0] (truncf .bf16 g1 hb) ht)
                (constant ⟨2, ![M, H]⟩ .f32 0x00000000#32)) hb)
              (transpose ⟨2, ![H, H]⟩ [1, 0] (truncf .bf16 sA hb) ht) (constant ⟨2, ![M, H]⟩ .f32 0x00000000#32))
            (FloatOps.matmul d none
              (truncf .bf16 (FloatOps.matmul d none (truncf .bf16 B hb) (transpose ⟨2, ![H, H]⟩ [1, 0] (truncf .bf16 g2 hb) ht)
                (constant ⟨2, ![M, H]⟩ .f32 0x00000000#32)) hb)
              (transpose ⟨2, ![H, H]⟩ [1, 0] (truncf .bf16 sB hb) ht) (constant ⟨2, ![M, H]⟩ .f32 0x00000000#32)))))) (ix2 p j)
      = gate (fun k => A (ix2 p k)) (fun k => B (ix2 p k)) (fun j k => g1 (ix2 j k)) (fun j k => g2 (ix2 j k))
          (fun j k => sA (ix2 j k)) (fun j k => sB (ix2 j k)) j := by
  unfold gate RowSpec.logistic
  refine congrArg (fun t => Ideal.div one (one + Ideal.exp t)) ?_
  refine (zero_sub_eq_neg _).trans ?_
  refine congrArg Neg.neg ?_
  refine congrArg₂ (· + ·) ?_ ?_
  · refine (matmul_transposed_apply d hlc hrc hln hrn hlb hrb _ sA hb ht p j).trans ?_
    refine congrArg (fun a => dot a (fun k => sA (ix2 j k))) (funext fun k => ?_)
    exact matmul_transposed_apply d hlc hrc hln hrn hlb hrb A g1 hb ht p k
  · refine (matmul_transposed_apply d hlc hrc hln hrn hlb hrb _ sB hb ht p j).trans ?_
    refine congrArg (fun a => dot a (fun k => sB (ix2 j k))) (funext fun k => ?_)
    exact matmul_transposed_apply d hlc hrc hln hrn hlb hrb B g2 hb ht p k

/-- The largest entry of each row, kept as a column and spread over `[a, c]`: at `(p, q)` the largest entry of row `p`. -/
theorem rowMax_spread_apply {a b c : ℕ} (z : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .maximumf [1] (⟨1, ![a]⟩ : Shape) z 0xFF800000#32 h hφ hacc) hcast) hbc (ix2 p q)
      = rowMax (fun k => z (ix2 p k)) :=
  (LibKeepdims.broadcastTo_a1_ab_apply _ hbc p q).trans
    ((LibKeepdims.shapeCast_a_a1_apply _ hcast p 0).trans (LibRowOps.rowMax_apply z 0xFF800000#32 h hφ hacc p))

/-- The logarithm of the softmax of each row: the row less its largest entry, less the logarithm of the row sum of
    the exponentials of those differences. -/
theorem logSoftmax_apply {a b : ℕ} (z : FVec Ideal ⟨2, ![a, b]⟩ .f32)
    (h : (⟨2, ![a, b]⟩ : Shape).Reduces [1] (⟨1, ![a]⟩ : Shape)) (hφ : FKind.Formats .f32)
    (haccM : (0xFF800000#32 : BitVec 32) = FKind.maximumf.neutral .f32 hφ)
    (haccS : (0x00000000#32 : BitVec 32) = 0x00000000#32)
    (hcast : (⟨1, ![a]⟩ : Shape).ShapeCasts ⟨2, ![a, 1]⟩) (hbc : (⟨2, ![a, 1]⟩ : Shape).Broadcasts ⟨2, ![a, b]⟩)
    (p : Fin a) (q : Fin b) :
    subf (subf z (broadcastTo ⟨2, ![a, b]⟩ (shapeCast ⟨2, ![a, 1]⟩ (multiReduction .maximumf [1] (⟨1, ![a]⟩ : Shape) z 0xFF800000#32 h hφ haccM) hcast) hbc))
      (broadcastTo ⟨2, ![a, b]⟩ (log (shapeCast ⟨2, ![a, 1]⟩ (multiReduction .add [1] (⟨1, ![a]⟩ : Shape)
        (exp (subf z (broadcastTo ⟨2, ![a, b]⟩ (shapeCast ⟨2, ![a, 1]⟩ (multiReduction .maximumf [1] (⟨1, ![a]⟩ : Shape) z 0xFF800000#32 h hφ haccM) hcast) hbc)))
        0x00000000#32 h hφ haccS) hcast)) hbc) (ix2 p q)
      = logSoftmax (fun k => z (ix2 p k)) q := by
  have hM : ∀ q' : Fin b, broadcastTo ⟨2, ![a, b]⟩ (shapeCast ⟨2, ![a, 1]⟩ (multiReduction .maximumf [1] (⟨1, ![a]⟩ : Shape) z 0xFF800000#32 h hφ haccM) hcast) hbc (ix2 p q')
      = rowMax (fun k => z (ix2 p k)) := fun q' => rowMax_spread_apply z h hφ haccM hcast hbc p q'
  unfold logSoftmax
  refine congrArg₂ (· - ·) ?_ ?_
  · exact congrArg (z (ix2 p q) - ·) (hM q)
  · refine (LibKeepdims.broadcastTo_a1_ab_apply _ hbc p q).trans ?_
    show Ideal.log (shapeCast ⟨2, ![a, 1]⟩ _ hcast (ix2 p (0 : Fin 1))) = _
    refine congrArg Ideal.log ?_
    refine (LibKeepdims.shapeCast_a_a1_apply _ hcast p 0).trans ?_
    refine (LibKeepdims.rowSum_apply _ h hφ haccS p).trans ?_
    refine Finset.sum_congr rfl fun k _ => ?_
    exact congrArg (fun t => Ideal.exp (z (ix2 p k) - t)) (hM k)

end Cert.KernelOps

end
-- ==== Proof.KernelRow.lean ====
/-
  The kernel body's values, one row at a time.

  The body's stored value is built from eight named pieces. Each piece, read at row `p` of the block, depends on
  row `p` of the two feature blocks only (and on the whole weight matrices): the clipped linear layer of the first
  unit row; the linear layer of the second unit row (clipped one step later); the gated blend of the two hidden
  rows; the length of the blend, its comparison with zero and its reciprocal; and last the logarithm of the softmax
  of the clipped last layer of the blend brought to unit length.
-/
import proofs.«134171_j69106023793434_1_alg».proof.Proof.Gen.KernelIdeal.Skeleton
import proofs.«134171_j69106023793434_1_alg».proof.Proof.KernelOps

noncomputable section

open scoped BigOperators

namespace Cert.KernelRow

open Idealize.ShloMosaic Idealize.ShloMosaic.ValueIdx Cert.KernelIdeal Cert.KernelIdeal.Gen Cert.RowSpec

/-- Row `p` of a matrix-shaped value, as a plain function of the column. -/
abbrev row {a b : ℕ} (x : (⟨2, ![a, b]⟩ : Shape).Idx → EReal) (p : Fin a) : Fin b → EReal := fun k => x (ix2 p k)

/-- The first hidden row: the clipped linear layer of the first feature row brought to unit length. -/
theorem pay2_apply (x0 : Vec Ideal S2000x512 .f32) (w : Vec Ideal S128x512 .f32) (p : Fin 2000) (j : Fin 128) :
    k0_pay2 (F := Ideal) x0 w (ix2 p j) = layer (row x0 p) (fun j => row w j) j := by
  unfold k0_pay2 layer relu
  refine congrArg (fun t => max t zero) ?_
  refine (KernelOps.matmul_transposed_apply dot_S2000x512_S512x128_S2000x128_1_0_0_1_n_n rfl rfl rfl rfl rfl rfl _ w
    bitsLt_bf16_f32 transposes_S128x512_p1_0_S512x128 p j).trans ?_
  refine congrArg (fun a => dot a (row w j)) (funext fun k => ?_)
  exact KernelOps.unit_spread_apply x0 reduces_S2000x512_S2000 (.inl rfl) rfl shapeCasts_S2000_S2000x1
    broadcasts_S2000x1_S2000x512 p k

/-- The second hidden row before clipping: the linear layer of the second feature row brought to unit length. -/
theorem pay3_apply (x1 : Vec Ideal S2000x512 .f32) (w : Vec Ideal S128x512 .f32) (p : Fin 2000) (j : Fin 128) :
    k0_pay3 (F := Ideal) x1 w (ix2 p j) = dot (unit (row x1 p)) (row w j) := by
  unfold k0_pay3
  refine (KernelOps.matmul_transposed_apply dot_S2000x512_S512x128_S2000x128_1_0_0_1_n_n rfl rfl rfl rfl rfl rfl _ w
    bitsLt_bf16_f32 transposes_S128x512_p1_0_S512x128 p j).trans ?_
  refine congrArg (fun a => dot a (row w j)) (funext fun k => ?_)
  exact KernelOps.unit_spread_apply x1 reduces_S2000x512_S2000 (.inl rfl) rfl shapeCasts_S2000_S2000x1
    broadcasts_S2000x1_S2000x512 p k

/-- The zero the second hidden row is clipped at. -/
theorem pay4_apply (i : S2000x128.Idx) : k0_pay4 (F := Ideal) i = zero := rfl

/-- The two halves of the combining matrix the body cuts out, as arrays. -/
abbrev halfA (gt : Vec Ideal S128x256 .f32) : FVec Ideal S128x128 .f32 :=
  extractStridedSlice S128x128 ![0, 0] gt slices_S128x256_o0_0_S128x128
abbrev halfB (gt : Vec Ideal S128x256 .f32) : FVec Ideal S128x128 .f32 :=
  extractStridedSlice S128x128 ![0, 128] gt slices_S128x256_o0_128_S128x128

/-- The left half reads columns `0 … 127` of the combining matrix, the right half columns `128 … 255`. -/
theorem halfA_apply (gt : Vec Ideal S128x256 .f32) (j k : Fin 128) :
    halfA gt (ix2 j k) = gt (ix2 j (Fin.castAdd 128 k)) :=
  slice2_axis1_apply 0 gt slices_S128x256_o0_0_S128x128 j k (Fin.castAdd 128 k) (Nat.zero_add _).symm
theorem halfB_apply (gt : Vec Ideal S128x256 .f32) (j k : Fin 128) :
    halfB gt (ix2 j k) = gt (ix2 j (Fin.natAdd 128 k)) :=
  slice2_axis1_apply 128 gt slices_S128x256_o0_128_S128x128 j k (Fin.natAdd 128 k) rfl

/-- The blend of the two hidden rows weighed by the gate, from the two hidden arrays (the second still unclipped). -/
theorem pay5_apply (v34 v37 v38 : FVec Ideal S2000x128 .f32) (g1 g2 : Vec Ideal S128x128 .f32) (gt : Vec Ideal S128x256 .f32)
    (p : Fin 2000) (j : Fin 128) :
    k0_pay5 (F := Ideal) v34 v37 v38 g1 g2 gt (ix2 p j)
      = blend (gate (row v34 p) (row (maximumf v37 v38) p) (fun j => row g1 j) (fun j => row g2 j)
          (fun j => row (halfA gt) j) (fun j => row (halfB gt) j)) (row v34 p) (row (maximumf v37 v38) p) j := by
  have hg := KernelOps.gate_apply dot_S2000x128_S128x128_S2000x128_1_0_0_1_n_n rfl rfl rfl rfl rfl rfl v34
    (maximumf v37 v38) g1 g2 (halfA gt) (halfB gt) bitsLt_bf16_f32 transposes_S128x128_p1_0_S128x128 p j
  unfold k0_pay5 blend
  exact congrArg₂ (· + ·) (congrArg (fun g => (one - g) * v34 (ix2 p j)) hg)
    (congrArg (fun g => g * maximumf v37 v38 (ix2 p j)) hg)

/-- The length of the blended row, kept as a column. -/
theorem pay6_apply (v34 v37 v38 : FVec Ideal S2000x128 .f32) (g1 g2 : Vec Ideal S128x128 .f32) (gt : Vec Ideal S128x256 .f32)
    (p : Fin 2000) (u : Fin 1) :
    k0_pay6 (F := Ideal) v34 v37 v38 g1 g2 gt (ix2 p u) = norm (row (k0_pay5 (F := Ideal) v34 v37 v38 g1 g2 gt) p) := by
  unfold k0_pay6
  exact KernelOps.norm_column_apply (k0_pay5 (F := Ideal) v34 v37 v38 g1 g2 gt) reduces_S2000x128_S2000 (.inl rfl) rfl
    shapeCasts_S2000_S2000x1 p u

/-- Whether that length is positive … -/
theorem pay7_apply (v34 v37 v38 : FVec Ideal S2000x128 .f32) (g1 g2 : Vec Ideal S128x128 .f32) (gt : Vec Ideal S128x256 .f32)
    (p : Fin 2000) (u : Fin 1) :
    k0_pay7 (F := Ideal) v34 v37 v38 g1 g2 gt (ix2 p u)
      = Ideal.cmp .ogt (norm (row (k0_pay5 (F := Ideal) v34 v37 v38 g1 g2 gt) p)) zero := by
  unfold k0_pay7
  show Ideal.cmp .ogt (k0_pay6 (F := Ideal) v34 v37 v38 g1 g2 gt (ix2 p u)) zero = _
  rw [pay6_apply]

/-- … and its reciprocal. -/
theorem pay8_apply (v34 v37 v38 : FVec Ideal S2000x128 .f32) (g1 g2 : Vec Ideal S128x128 .f32) (gt : Vec Ideal S128x256 .f32)
    (p : Fin 2000) (u : Fin 1) :
    k0_pay8 (F := Ideal) v34 v37 v38 g1 g2 gt (ix2 p u)
      = Ideal.div one (norm (row (k0_pay5 (F := Ideal) v34 v37 v38 g1 g2 gt) p)) := by
  unfold k0_pay8
  show Ideal.div one (k0_pay6 (F := Ideal) v34 v37 v38 g1 g2 gt (ix2 p u)) = _
  rw [pay6_apply]

/-- The stored value from the blend, the comparison and the reciprocal: the logarithm of the softmax of the clipped
    last layer of the blended row times its chosen factor. -/
theorem pay1_apply (v73 : FVec Ideal S2000x128 .f32) (v79 : IVec S2000x1 1) (v81 : FVec Ideal S2000x1 .f32)
    (wc : Vec Ideal S70x128 .f32) (p : Fin 2000) (q : Fin 70) :
    k0_pay1 (F := Ideal) v73 v79 v81 wc (ix2 p q)
      = logSoftmax (fun q' => relu (dot
          (fun k => v73 (ix2 p k) * Scalar.select (v79 (ix2 p (0 : Fin 1))) (v81 (ix2 p (0 : Fin 1))) zero) (row wc q'))) q := by
  unfold k0_pay1
  refine (KernelOps.logSoftmax_apply _ reduces_S2000x70_S2000 (.inl rfl) rfl rfl shapeCasts_S2000_S2000x1
    broadcasts_S2000x1_S2000x70 p q).trans ?_
  refine congrArg (fun z => logSoftmax z q) (funext fun q' => ?_)
  unfold relu
  refine congrArg (fun t => max t zero) ?_
  refine (KernelOps.matmul_transposed_apply dot_S2000x128_S128x70_S2000x70_1_0_0_1_n_n rfl rfl rfl rfl rfl rfl _ wc
    bitsLt_bf16_f32 transposes_S70x128_p1_0_S128x70 p q').trans ?_
  refine congrArg (fun a => dot a (row wc q')) (funext fun k => ?_)
  exact congrArg (v73 (ix2 p k) * ·) (KernelOps.select_spread_apply v79 v81 _ broadcasts_S2000x1_S2000x128 p k)

/-- The whole body at an entry of the block: row `p` of the two feature blocks and the weights go through the
    row-wise function. -/
theorem body_apply (x0 x1 : Vec Ideal S2000x512 .f32) (w0 w1 : Vec Ideal S128x512 .f32) (g1 g2 : Vec Ideal S128x128 .f32)
    (gt : Vec Ideal S128x256 .f32) (wc : Vec Ideal S70x128 .f32) (p : Fin 2000) (q : Fin 70) :
    k0_pay1 (F := Ideal) (k0_pay5 (k0_pay2 x0 w0) (k0_pay3 x1 w1) k0_pay4 g1 g2 gt)
        (k0_pay7 (k0_pay2 x0 w0) (k0_pay3 x1 w1) k0_pay4 g1 g2 gt)
        (k0_pay8 (k0_pay2 x0 w0) (k0_pay3 x1 w1) k0_pay4 g1 g2 gt) wc (ix2 p q)
      = out (row x0 p) (row x1 p) (fun j => row w0 j) (fun j => row w1 j) (fun j => row g1 j) (fun j => row g2 j)
          (fun j k => gt (ix2 j (Fin.castAdd 128 k))) (fun j k => gt (ix2 j (Fin.natAdd 128 k))) (fun j => row wc j) q := by
  have hA : (fun j => row (halfA gt) j) = fun j k => gt (ix2 j (Fin.castAdd 128 k)) :=
    funext fun j => funext fun k => halfA_apply gt j k
  have hB : (fun j => row (halfB gt) j) = fun j k => gt (ix2 j (Fin.natAdd 128 k)) :=
    funext fun j => funext fun k => halfB_apply gt j k
  have hli : row (k0_pay2 (F := Ideal) x0 w0) p = layer (row x0 p) (fun j => row w0 j) :=
    funext fun k => pay2_apply x0 w0 p k
  have hls : row (maximumf (k0_pay3 (F := Ideal) x1 w1) k0_pay4) p = layer (row x1 p) (fun j => row w1 j) :=
    funext fun k => congrArg (fun t => max t zero) (pay3_apply x1 w1 p k)
  have h5 : ∀ k : Fin 128, k0_pay5 (F := Ideal) (k0_pay2 x0 w0) (k0_pay3 x1 w1) k0_pay4 g1 g2 gt (ix2 p k)
      = blend (gate (layer (row x0 p) (fun j => row w0 j)) (layer (row x1 p) (fun j => row w1 j)) (fun j => row g1 j)
          (fun j => row g2 j) (fun j k => gt (ix2 j (Fin.castAdd 128 k))) (fun j k => gt (ix2 j (Fin.natAdd 128 k))))
          (layer (row x0 p) (fun j => row w0 j)) (layer (row x1 p) (fun j => row w1 j)) k := fun k => by
    rw [pay5_apply, hli, hls, hA, hB]
  have h5f : row (k0_pay5 (F := Ideal) (k0_pay2 x0 w0) (k0_pay3 x1 w1) k0_pay4 g1 g2 gt) p
      = blend (gate (layer (row x0 p) (fun j => row w0 j)) (layer (row x1 p) (fun j => row w1 j)) (fun j => row g1 j)
          (fun j => row g2 j) (fun j k => gt (ix2 j (Fin.castAdd 128 k))) (fun j k => gt (ix2 j (Fin.natAdd 128 k))))
          (layer (row x0 p) (fun j => row w0 j)) (layer (row x1 p) (fun j => row w1 j)) := funext h5
  rw [pay1_apply]
  refine congrArg (fun z => logSoftmax z q) (funext fun q' => ?_)
  refine congrArg (fun a => relu (dot a (row wc q'))) (funext fun k => ?_)
  rw [pay7_apply, pay8_apply, h5f, h5 k]
  rfl

end Cert.KernelRow

end
-- ==== Proof.WholeArray.lean ====
/-
  The whole score array: entry `(r, q)` is entry `q` of the row-wise function of row `r` of the two feature arrays
  and of the weight matrices. Both programs compute this array on all 200000 rows before picking rows out of it.
-/
import proofs.«134171_j69106023793434_1_alg».proof.Proof.RowSpec
import Idealize.ShloMosaic.Lib.ValueIdx

noncomputable section

namespace Cert.WholeArray

open Idealize.ShloMosaic Idealize.ShloMosaic.ValueIdx Cert.RowSpec

/-- Row `p` of a matrix-shaped array, as a plain function of the column. -/
abbrev row {a b : ℕ} (x : (⟨2, ![a, b]⟩ : Shape).Idx → EReal) (p : Fin a) : Fin b → EReal := fun k => x (ix2 p k)

/-- The score array from the argument arrays. -/
def scores (X S : (⟨2, ![200000, 512]⟩ : Shape).Idx → EReal) (W0 W1 : (⟨2, ![128, 512]⟩ : Shape).Idx → EReal)
    (G1 G2 : (⟨2, ![128, 128]⟩ : Shape).Idx → EReal) (GT : (⟨2, ![128, 256]⟩ : Shape).Idx → EReal)
    (WC : (⟨2, ![70, 128]⟩ : Shape).Idx → EReal) : (⟨2, ![200000, 70]⟩ : Shape).Idx → EReal :=
  fun i => out (row X ⟨(i 0).val, idx2_lt0 i⟩) (row S ⟨(i 0).val, idx2_lt0 i⟩) (fun j => row W0 j) (fun j => row W1 j)
    (fun j => row G1 j) (fun j => row G2 j) (fun j k => GT (ix2 j (Fin.castAdd 128 k)))
    (fun j k => GT (ix2 j (Fin.natAdd 128 k))) (fun j => row WC j) ⟨(i 1).val, idx2_lt1 i⟩

/-- At an entry written by its coordinates. -/
theorem scores_apply (X S : (⟨2, ![200000, 512]⟩ : Shape).Idx → EReal) (W0 W1 : (⟨2, ![128, 512]⟩ : Shape).Idx → EReal)
    (G1 G2 : (⟨2, ![128, 128]⟩ : Shape).Idx → EReal) (GT : (⟨2, ![128, 256]⟩ : Shape).Idx → EReal)
    (WC : (⟨2, ![70, 128]⟩ : Shape).Idx → EReal) (r : Fin 200000) (q : Fin 70) :
    scores X S W0 W1 G1 G2 GT WC (ix2 r q)
      = out (row X r) (row S r) (fun j => row W0 j) (fun j => row W1 j) (fun j => row G1 j) (fun j => row G2 j)
          (fun j k => GT (ix2 j (Fin.castAdd 128 k))) (fun j k => GT (ix2 j (Fin.natAdd 128 k))) (fun j => row WC j) q := rfl

end Cert.WholeArray

end
-- ==== Proof.KernelValue.lean ====
/-
  From the kernel's blocks to its whole output array, and on through the lines after the call.

  The grid has 100 points; point `t` reads rows `2000 t … 2000 t + 1999` of the two feature arrays and the whole of
  each weight matrix, and writes rows `2000 t … 2000 t + 1999` of the output. Row `p` of what it writes is the
  row-wise function of row `p` of its feature blocks, that is of row `2000 t + p` of the feature arrays: so each
  written block is the block of ONE whole-array function, the score array. The 100 blocks cover the 200000 rows
  (row `r` lies in block `r / 2000`), so the output array ends holding the score array, and the lines after the
  call pick rows out of it.
-/
import proofs.«134171_j69106023793434_1_alg».proof.Proof.Gen.KernelIdeal.Frame
import proofs.«134171_j69106023793434_1_alg».proof.Proof.KernelRow
import proofs.«134171_j69106023793434_1_alg».proof.Proof.WholeArray
import Idealize.ShloMosaic.Lib.Pipeline.Value
import Idealize.ShloMosaic.Lib.StableHlo.Run

set_option maxRecDepth 16384

noncomputable section

namespace Cert.KernelValue

open Idealize.ShloMosaic Idealize.ShloMosaic.TcCoe Idealize.ShloMosaic.ValueIdx Idealize.SL.Sem Idealize.ShloMosaic.StableHlo
open Cert.KernelIdeal Cert.KernelIdeal.Gen Cert.RowSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature windows and the output window move one block of rows per
    point and stay in column block 0; the weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The windows' blocks read off the arrays -/

/-- Row `p` of the first feature block at point `t` is row `2000 t + p` of the first feature array. -/
theorem iblk0_apply (c : Dev nD) (t : Fin cfg0.N) (x : S2000x512.Idx) (k : S200000x512.Idx)
    (hk0 : (k 0).val = t.val * 2000 + (x 0).val) (hk1 : (k 1).val = (x 1).val) :
    (iblk m c 0 t : Vec Ideal S2000x512 .f32) x = (V m c main_arg0 : S200000x512.Idx → Elt Ideal .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 512 + 1 * (x 1).val = (k 1).val; rw [e1, hk1]; omega

/-- The same for the second feature block. -/
theorem iblk1_apply (c : Dev nD) (t : Fin cfg0.N) (x : S2000x512.Idx) (k : S200000x512.Idx)
    (hk0 : (k 0).val = t.val * 2000 + (x 0).val) (hk1 : (k 1).val = (x 1).val) :
    (iblk m c 1 t : Vec Ideal S2000x512 .f32) x = (V m c main_arg1 : S200000x512.Idx → Elt Ideal .f32) k := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 2000 + 1 * (x 0).val = (k 0).val; rw [e0, hk0]; omega
  | ⟨1, _⟩ => show win0_1.index t 1 * 512 + 1 * (x 1).val = (k 1).val; rw [e1, hk1]; omega

/-- A weight window's one block is the whole weight matrix. -/
theorem iblk2_eq (c : Dev nD) (t : Fin cfg0.N) :
    (iblk m c 2 t : Vec Ideal S128x512 .f32) = (V m c main_arg3 : S128x512.Idx → Elt Ideal .f32) := by
  obtain ⟨-, -, -, -, e0, e1, -⟩ := idx_facts t
  funext x
  unfold iblk
  rw [View.read_apply]
  show V m c main_arg3 _ = V m c main_arg3 _
  congr 1
  funext a
  apply Fin.ext
  match a with
  | ⟨0, _⟩ => show win0_2.index t 0 * 128 + 1 * (x 0).val = (x 0).val; rw [e0]; omega
  | ⟨1, _⟩ => show win0_2.index t 1 * 512 + 1 * (x 1).val = (x 1).val; rw [e1]; omega
theorem iblk3_eq (c : Dev nD) (t : Fin cfg0.N) :
    (iblk m c 3 t : Vec Ideal S128x512 .f32) = (V m c main_arg4 : S128x512.Idx → Elt Ideal .f32) := by
  obtain ⟨-, -, -, -, -, -, e0, e1, -⟩ := idx_facts t
  funext x
  unfold iblk
  rw [View.read_apply]
  show V m c main_arg4 _ = V m c main_arg4 _
  congr 1
  funext a
  apply Fin.ext
  match a with
  | ⟨0, _⟩ => show win0_3.index t 0 * 128 + 1 * (x 0).val = (x 0).val; rw [e0]; omega
  | ⟨1, _⟩ => show win0_3.index t 1 * 512 + 1 * (x 1).val = (x 1).val; rw [e1]; omega
theorem iblk4_eq (c : Dev nD) (t : Fin cfg0.N) :
    (iblk m c 4 t : Vec Ideal S128x128 .f32) = (V m c main_arg5 : S128x128.Idx → Elt Ideal .f32) := by
  obtain ⟨-, -, -, -, -, -, -, -, e0, e1, -⟩ := idx_facts t
  funext x
  unfold iblk
  rw [View.read_apply]
  show V m c main_arg5 _ = V m c main_arg5 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega
theorem iblk5_eq (c : Dev nD) (t : Fin cfg0.N) :
    (iblk m c 5 t : Vec Ideal S128x128 .f32) = (V m c main_arg6 : S128x128.Idx → Elt Ideal .f32) := by
  obtain ⟨-, -, -, -, -, -, -, -, -, -, e0, e1, -⟩ := idx_facts t
  funext x
  unfold iblk
  rw [View.read_apply]
  show V m c main_arg6 _ = V m c main_arg6 _
  congr 1
  funext a
  apply Fin.ext
  match a with
  | ⟨0, _⟩ => show win0_5.index t 0 * 128 + 1 * (x 0).val = (x 0).val; rw [e0]; omega
  | ⟨1, _⟩ => show win0_5.index t 1 * 128 + 1 * (x 1).val = (x 1).val; rw [e1]; omega
theorem iblk6_eq (c : Dev nD) (t : Fin cfg0.N) :
    (iblk m c 6 t : Vec Ideal S128x256 .f32) = (V m c main_arg7 : S128x256.Idx → Elt Ideal .f32) := by
  obtain ⟨-, -, -, -, -, -, -, -, -, -, -, -, e0, e1, -⟩ := idx_facts t
  funext x
  unfold iblk
  rw [View.read_apply]
  show V m c main_arg7 _ = V m c main_arg7 _
  congr 1
  funext a
  apply Fin.ext
  match a with
  | ⟨0, _⟩ => show win0_6.index t 0 * 128 + 1 * (x 0).val = (x 0).val; rw [e0]; omega
  | ⟨1, _⟩ => show win0_6.index t 1 * 256 + 1 * (x 1).val = (x 1).val; rw [e1]; omega
theorem iblk7_eq (c : Dev nD) (t : Fin cfg0.N) :
    (iblk m c 7 t : Vec Ideal S70x128 .f32) = (V m c main_arg8 : S70x128.Idx → Elt Ideal .f32) := by
  obtain ⟨-, -, -, -, -, -, -, -, -, -, -, -, -, -, e0, e1, -⟩ := idx_facts t
  funext x
  unfold iblk
  rw [View.read_apply]
  show V m c main_arg8 _ = V m c main_arg8 _
  congr 1
  funext a
  apply Fin.ext
  match a with
  | ⟨0, _⟩ => show win0_7.index t 0 * 70 + 1 * (x 0).val = (x 0).val; rw [e0]; omega
  | ⟨1, _⟩ => show win0_7.index t 1 * 128 + 1 * (x 1).val = (x 1).val; rw [e1]; omega

/-! ## What one point writes -/

/-- One entry of what a point writes: when row `y 0` of the two feature blocks is row `i 0` of the feature arrays
    and `y`, `i` name the same column, the body's value at `y` is the score array at `i`. -/
theorem point_eq (x0 x1 : Vec Ideal S2000x512 .f32) (w0 w1 : Vec Ideal S128x512 .f32) (g1 g2 : Vec Ideal S128x128 .f32)
    (gt : Vec Ideal S128x256 .f32) (wc : Vec Ideal S70x128 .f32) (X S : S200000x512.Idx → EReal)
    (y : S2000x70.Idx) (i : S200000x70.Idx)
    (hx : ∀ k : Fin 512, x0 (ix2 ⟨(y 0).val, idx2_lt0 y⟩ k) = X (ix2 ⟨(i 0).val, idx2_lt0 i⟩ k))
    (hs : ∀ k : Fin 512, x1 (ix2 ⟨(y 0).val, idx2_lt0 y⟩ k) = S (ix2 ⟨(i 0).val, idx2_lt0 i⟩ k))
    (hq : (y 1).val = (i 1).val) :
    k0_pay1 (F := Ideal) (k0_pay5 (k0_pay2 x0 w0) (k0_pay3 x1 w1) k0_pay4 g1 g2 gt)
        (k0_pay7 (k0_pay2 x0 w0) (k0_pay3 x1 w1) k0_pay4 g1 g2 gt)
        (k0_pay8 (k0_pay2 x0 w0) (k0_pay3 x1 w1) k0_pay4 g1 g2 gt) wc y
      = WholeArray.scores X S w0 w1 g1 g2 gt wc i := by
  obtain ⟨p, q, rfl⟩ : ∃ (p : Fin 2000) (q : Fin 70), y = ix2 p q := ⟨y 0, y 1, eq_ix2 y⟩
  rw [KernelRow.body_apply]
  have hrx : KernelRow.row x0 p = WholeArray.row X ⟨(i 0).val, idx2_lt0 i⟩ := funext hx
  have hrs : KernelRow.row x1 p = WholeArray.row S ⟨(i 0).val, idx2_lt0 i⟩ := funext hs
  have hq' : q = ⟨(i 1).val, idx2_lt1 i⟩ := Fin.ext hq
  rw [hrx, hrs, hq']
  rfl

/-- WHAT POINT `t` WRITES BACK is block `t` of the score array of the argument arrays as the call finds them. -/
theorem flushed_eq (c : Dev nD) (t : Fin cfg0.N) :
    (dats m 0 c).flushed 8 t = ((cfg0.win 8).blk t).view.read (Elt Ideal)
      (WholeArray.scores (V m c main_arg0) (V m c main_arg1) (V m c main_arg3) (V m c main_arg4) (V m c main_arg5)
        (V m c main_arg6) (V m c main_arg7) (V m c main_arg8)) := by
  show (cfg0.win 8).cut (grid0.coords t) ((dats m 0 c).after 8 t) = _
  rw [after0_8]
  unfold out0_8
  rw [View.canon_unit_zero hz]
  simp only [View.ld_unit_zero (S := S2000x512) hz, View.ld_unit_zero (S := S128x512) hz, View.ld_unit_zero (S := S128x128) hz,
    View.ld_unit_zero (S := S128x256) hz, View.ld_unit_zero (S := S70x128) hz]
  rw [iblk2_eq, iblk3_eq, iblk4_eq, iblk5_eq, iblk6_eq, iblk7_eq]
  obtain ⟨-, -, -, -, -, -, -, -, -, -, -, -, -, -, -, -, e0, e1⟩ := idx_facts t
  funext y
  rw [View.read_apply]
  refine point_eq (iblk m c 0 t) (iblk m c 1 t) _ _ _ _ _ _ _ _ y _ ?_ ?_ ?_
  · intro k
    refine iblk0_apply m c t _ _ ?_ rfl
    show win0_8.index t 0 * 2000 + 1 * (y 0).val = t.val * 2000 + (y 0).val
    rw [e0]; omega
  · intro k
    refine iblk1_apply m c t _ _ ?_ rfl
    show win0_8.index t 0 * 2000 + 1 * (y 0).val = t.val * 2000 + (y 0).val
    rw [e0]; omega
  · show (y 1).val = win0_8.index t 1 * 70 + 1 * (y 1).val
    rw [e1]; omega

/-! ## The blocks cover the array -/

/-- An entry of the output array is in point `t`'s block iff each coordinate is in the block's range on its axis. -/
theorem mem_blk (t : Fin cfg0.N) (i : S200000x70.Idx) :
    i ∈ ((cfg0.win 8).blk t).view.set ↔ ∀ a : Fin 2, win0_8.index t a * S2000x70.size a ≤ (i a).val
      ∧ (i a).val < win0_8.index t a * S2000x70.size a + S2000x70.size a := by
  show i ∈ ((View.whole main_v0).slice (win0_8.rect t)).set ↔ _
  rw [View.set_slice_whole, Rect.mem_set_unit]
  exact Iff.rfl

/-- Every entry of the output array is in the block of the point its row falls in. -/
theorem cover (i : S200000x70.Idx) : ∃ t : Fin cfg0.N, (cfg0.win 8).flush t = true ∧ i ∈ ((cfg0.win 8).blk t).view.set := by
  have hN : cfg0.N = 100 := N_0
  have hi0 : (i 0).val < 200000 := (i 0).isLt
  have hi1 : (i 1).val < 70 := (i 1).isLt
  refine ⟨⟨(i 0).val / 2000, by rw [hN]; omega⟩, flush0_8 _, ?_⟩
  rw [mem_blk]
  obtain ⟨-, -, -, -, -, -, -, -, -, -, -, -, -, -, -, -, e0, e1⟩ := idx_facts ⟨(i 0).val / 2000, by rw [hN]; omega⟩
  intro a
  match a with
  | ⟨0, _⟩ =>
    show win0_8.index _ 0 * 2000 ≤ (i 0).val ∧ (i 0).val < win0_8.index _ 0 * 2000 + 2000
    rw [e0]
    show (i 0).val / 2000 * 2000 ≤ (i 0).val ∧ (i 0).val < (i 0).val / 2000 * 2000 + 2000
    omega
  | ⟨1, _⟩ =>
    show win0_8.index _ 1 * 70 ≤ (i 1).val ∧ (i 1).val < win0_8.index _ 1 * 70 + 70
    rw [e1]; omega

/-- THE OUTPUT ARRAY after the call: the score array of the argument arrays. -/
theorem final (c : Dev nD) : (dats m 0 c).arrAt 8 cfg0.N
    = WholeArray.scores (V m c main_arg0) (V m c main_arg1) (V m c main_arg3) (V m c main_arg4) (V m c main_arg5)
        (V m c main_arg6) (V m c main_arg7) (V m c main_arg8) :=
  (dats m 0 c).arrAt_eq_of_cover 8 _ (fun t _ => flushed_eq m c t) cover

/-! ## The lines after the call, and the run -/

/-- The lines after the call: a negative row number is counted from the end (200000 is added to it), and the rows so
    numbered are picked out of the output array. -/
def pick (T : (⟨S200000x70, .f32⟩ : BufTy).Contents (Elt Ideal)) (idx : (⟨S10000, .i32⟩ : BufTy).Contents (Elt Ideal)) :
    (⟨S10000x70, .f32⟩ : BufTy).Contents (Elt Ideal) :=
  Host.gather gather_S200000x70_S10000x1_S10000x70_1_0_n_n_0_1_170 T
    (broadcastInDim S10000x1 ![0] bcast_S10000_S10000x1_0
      (select (cmpi .slt idx (broadcastInDim S10000 ![] bcast_S_S10000 (constantI S_ 32 0#32)))
        (addi idx (broadcastInDim S10000 ![] bcast_S_S10000 (constantI S_ 32 200000#32))) idx))

/-- What the result buffer holds after the lines that follow the call: the rows picked out of the score array. -/
theorem tail_eq (c : Dev nD) :
    Pipeline.afterTail₀ cfgs (dats m) 0 (V0 m) [hostOps1] c main_v7
      = pick (WholeArray.scores (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)))
          (m ((c : Thread nD τ).loc main_arg2)) := by
  unfold Pipeline.afterTail₀
  show StableHlo.after hostOps1 _ (Proc.devRef .tc main_v7) = _
  after_results
  show pick (Pipeline.withArrays (cfgs 0).spec c (V0 m c) (fun w => (dats m 0 c).arrAt w (cfgs 0).N) (Proc.devRef .tc main_v0))
      (Pipeline.withArrays (cfgs 0).spec c (V0 m c) (fun w => (dats m 0 c).arrAt w (cfgs 0).N) (Proc.devRef .tc main_arg2)) = _
  exact congrArg₂ pick ((Pipeline.withArrays_arr spec0 launch0.win.arr_inj c _ _ 8).trans (final m c))
    ((Pipeline.withArrays_of_ne _ c (V0 m c) _ main_arg2 (by exact (by decide : ∀ w, Pipeline.arrRef spec0 w ≠ main_arg2))).trans
      (V_main_arg2 m c))

/-- THE KERNEL'S RUN, READ: every weakly fair execution terminates with the result buffer at the rows picked out of
    the score array of the argument arrays, and the argument arrays unchanged. -/
theorem run : θ_run defs (onTc (τ := τ) (main (F := Ideal))) ⟨m, fun _ => 0, ρ⟩ (fun r => ∀ c : Dev nD,
      r.2.mem ((c.tc : Thread nD τ).loc main_v7)
        = pick (WholeArray.scores (m ((c : Thread nD τ).loc main_arg0)) (m ((c : Thread nD τ).loc main_arg1))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩) (run_main m ρ)

end Cert.KernelValue

end
-- ==== Proof.RefOps.lean ====
/-
  The reference's compound steps read at an entry, at the ideal values and over shapes with free extents.

  The reference spells the same row-wise steps with the host's operations: a row sum is a `reduce` from an initial
  scalar (zero, so it adds nothing); a column is made by `broadcast_in_dim` along axis 0 and spread along `[0, 1]`; a
  scalar is spread along no axis; a matrix product is a `dot_general` with a transposed matrix; the softmax's row
  maximum is taken once more against minus infinity, which changes nothing.
-/
import proofs.«134171_j69106023793434_1_alg».proof.Proof.RowSpec
import proofs.«134171_j69106023793434_1_alg».proof.Proof.LibKeepdims
import proofs.«134171_j69106023793434_1_alg».proof.Proof.LibRowOps
import proofs.«134171_j69106023793434_1_alg».proof.Proof.LibMatmulPlain
import Idealize.ShloMosaic.Lib.ValueLayout
import Idealize.ShloMosaic.Lib.Pipeline.Value

noncomputable section

open scoped BigOperators

namespace Cert.RefOps

open Idealize.ShloMosaic Idealize.ShloMosaic.ValueIdx Cert.RowSpec

/-- The shape of a scalar. -/
abbrev S0 : Shape := ⟨0, ![]⟩

/-- An `[a]` vector made a column `[a, 1]` along axis 0 reads, at `(r, u)`, the vector at `r`. -/
theorem column_apply {α : Type} {a : ℕ} (y : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h y (ix2 r u) = y (ix1 r) :=
  broadcastInDim_apply _ h y (ix2 r u) (ix1 r) fun ax => by
    match ax with
    | ⟨0, _⟩ =>
      show r.val = if a = 1 then 0 else r.val
      split
      · have := r.isLt; omega
      · rfl

/-- A column `[a, 1]` spread along `[0, 1]` over `[a, b]` reads, at `(r, k)`, the column's entry of row `r`. -/
theorem spread_apply {α : Type} {a b : ℕ} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) :=
  broadcastInDim_apply _ h v (ix2 r k) (ix2 r (0 : Fin 1)) fun ax => by
    match ax with
    | ⟨0, _⟩ =>
      show r.val = if a = 1 then 0 else r.val
      split
      · have := r.isLt; omega
      · rfl
    | ⟨1, _⟩ => rfl

/-- The host's row sum from an initial scalar, read at row `r`: the initial value plus the sum of that row's entries. -/
theorem hostRowSum_apply {a b : ℕ} (x : FVec Ideal ⟨2, ![a, b]⟩ .f32) (init : FVec Ideal S0 .f32)
    (h' : (⟨2, ![a, b]⟩ : Shape).ReducesTo [1] (⟨1, ![a]⟩ : Shape)) (h : (⟨2, ![a, b]⟩ : Shape).Reduces [1] (⟨1, ![a]⟩ : Shape))
    (hu : 0 < S0.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) ?_
  exact Finset.sum_congr rfl fun k _ => congrArg x (LibKeepdims.lift_cols h r k)

/-- The row lengths the host's way — squares, row sum from zero, made a column, square root — read at `(r, u)`: the
    length of row `r`. -/
theorem norm_column_apply {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < S0.numel) (hc : (⟨1, ![a]⟩ : Shape).BroadcastsInDim ⟨2, ![a, 1]⟩ (![0] : Fin 1 → Fin 2)) (r : Fin a) (u : Fin 1) :
    Host.sqrt (broadcastInDim ⟨2, ![a, 1]⟩ ![0] hc (Host.reduceAdd (mulf x x) (constant (F := Ideal) S0 .f32 0x00000000#32) h' hu)) (ix2 r u)
      = RowSpec.norm (fun k => x (ix2 r k)) := by
  show Ideal.sqrt (broadcastInDim ⟨2, ![a, 1]⟩ ![0] hc (Host.reduceAdd (mulf x x) (constant (F := Ideal) S0 .f32 0x00000000#32) h' hu) (ix2 r u)) = _
  rw [column_apply _ hc r u, hostRowSum_apply (mulf x x) _ h' h hu r]
  unfold RowSpec.norm
  refine congrArg Ideal.sqrt ?_
  show Ideal.ofBits .f32 0x00000000#32 + _ = _
  rw [Ideal.ofBits_zero_f32, zero_add]
  rfl

/-- A row brought to unit length the host's way: the row times its scaling factor, the factor chosen in a column
    (the comparison of the length with a spread zero choosing between the quotient of a spread one by the length and a
    spread zero) and spread over the row. -/
theorem unit_spread_apply {a b : ℕ} (x : FVec Ideal ⟨2, ![a, b]⟩ .f32) (nrm : FVec Ideal ⟨2, ![a, 1]⟩ .f32)
    (h0 : S0.BroadcastsInDim ⟨2, ![a, 1]⟩ (![] : Fin 0 → Fin 2))
    (hs : (⟨2, ![a, 1]⟩ : Shape).BroadcastsInDim ⟨2, ![a, b]⟩ (![0, 1] : Fin 2 → Fin 2)) (r : Fin a) (k : Fin b)
    (hn : nrm (ix2 r (0 : Fin 1)) = RowSpec.norm (fun k => x (ix2 r k))) :
    mulf x (broadcastInDim ⟨2, ![a, b]⟩ ![0, 1] hs
      (select (cmpf .ogt nrm (broadcastInDim ⟨2, ![a, 1]⟩ ![] h0 (constant (F := Ideal) S0 .f32 0x00000000#32)))
        (Host.divf (broadcastInDim ⟨2, ![a, 1]⟩ ![] h0 (constant (F := Ideal) S0 .f32 0x3F800000#32)) nrm)
        (broadcastInDim ⟨2, ![a, 1]⟩ ![] h0 (id (constant (F := Ideal) S0 .f32 0x00000000#32))))) (ix2 r k)
      = unit (fun k => x (ix2 r k)) k := by
  unfold unit scale
  refine congrArg (x (ix2 r k) * ·) ?_
  refine (spread_apply _ hs r k).trans ?_
  show Scalar.select (Ideal.cmp .ogt (nrm (ix2 r (0 : Fin 1))) zero) (Ideal.div one (nrm (ix2 r (0 : Fin 1)))) zero = _
  rw [hn]

/-- The host's product with a transposed matrix: entry `(r, j)` pairs row `r` of the left operand with row `j` of
    the matrix. -/
theorem dot_transposed_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (L : FVec Ideal ⟨2, ![M, K]⟩ .f32) (W : FVec Ideal ⟨2, ![N, K]⟩ .f32)
    (ht : (⟨2, ![N, K]⟩ : Shape).Transposes [1, 0] ⟨2, ![K, N]⟩) (r : Fin M) (j : Fin N) :
    Host.dotGeneral d none L (transpose ⟨2, ![K, N]⟩ [1, 0] W ht) (ix2 r j)
      = dot (fun k => L (ix2 r k)) (fun k => W (ix2 j k)) := by
  simp only [Host.dotGeneral]
  rw [Ideal.dotGeneral_apply,
    ← Equiv.sum_comp (contrEquiv1 d K (LibMatmulPlain.rank_contr_one d hlc) (LibMatmulPlain.size_contr_zero d hlc)).symm]
  unfold dot
  refine Finset.sum_congr rfl fun k _ => ?_
  have hk := contrEquiv1_symm_val d K (LibMatmulPlain.rank_contr_one d hlc) (LibMatmulPlain.size_contr_zero d hlc) k
  refine congrArg₂ (· * ·) ?_ ?_
  · refine congrArg L (funext fun a => Fin.ext ?_)
    match a with
    | ⟨0, _⟩ => exact LibMatmulPlain.lhs_row d hln hlb _ _
    | ⟨1, _⟩ => exact (d.lhsIdx_val_of_single hlc _ _).trans hk
  · refine Eq.trans ?_ (transpose_ix2_apply W ht k j)
    refine congrArg (transpose ⟨2, ![K, N]⟩ [1, 0] W ht) (funext fun a => Fin.ext ?_)
    match a with
    | ⟨0, _⟩ => exact (d.rhsIdx_val_of_single hrc _ _).trans hk
    | ⟨1, _⟩ => exact LibMatmulPlain.rhs_col d hln hrn hlb hrb _ _

/-- The logarithm of the softmax of each row the host's way: the row maximum from minus infinity, taken once more
    against minus infinity, made a column and spread; the row sum of exponentials from zero, made a column, its
    logarithm spread. -/
theorem logSoftmax_apply {a b : ℕ} (z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < S0.numel) (h1 : S0.BroadcastsInDim ⟨1, ![a]⟩ (![] : Fin 0 → Fin 1))
    (hc : (⟨1, ![a]⟩ : Shape).BroadcastsInDim ⟨2, ![a, 1]⟩ (![0] : Fin 1 → Fin 2))
    (hs : (⟨2, ![a, 1]⟩ : Shape).BroadcastsInDim ⟨2, ![a, b]⟩ (![0, 1] : Fin 2 → Fin 2)) (r : Fin a) (q : Fin b) :
    subf (subf z (broadcastInDim ⟨2, ![a, b]⟩ ![0, 1] hs (broadcastInDim ⟨2, ![a, 1]⟩ ![0] hc
        (maximumf (broadcastInDim ⟨1, ![a]⟩ ![] h1 (constant (F := Ideal) S0 .f32 0xFF800000#32))
          (Host.reduce (FloatOps.maximumf (F := Ideal) (φ := .f32)) z (constant (F := Ideal) S0 .f32 0xFF800000#32) h' hu)))))
      (broadcastInDim ⟨2, ![a, b]⟩ ![0, 1] hs (Host.log (broadcastInDim ⟨2, ![a, 1]⟩ ![0] hc
        (Host.reduceAdd (Host.exp (subf z (broadcastInDim ⟨2, ![a, b]⟩ ![0, 1] hs (broadcastInDim ⟨2, ![a, 1]⟩ ![0] hc
          (maximumf (broadcastInDim ⟨1, ![a]⟩ ![] h1 (constant (F := Ideal) S0 .f32 0xFF800000#32))
            (Host.reduce (FloatOps.maximumf (F := Ideal) (φ := .f32)) z (constant (F := Ideal) S0 .f32 0xFF800000#32) h' hu))))))
          (constant (F := Ideal) S0 .f32 0x00000000#32) h' hu)))) (ix2 r q)
      = logSoftmax (fun k => z (ix2 r k)) q := by
  have hM : ∀ q' : Fin b, broadcastInDim ⟨2, ![a, b]⟩ (![0, 1] : Fin 2 → Fin 2) hs (broadcastInDim ⟨2, ![a, 1]⟩ (![0] : Fin 1 → Fin 2) hc
        (maximumf (broadcastInDim ⟨1, ![a]⟩ (![] : Fin 0 → Fin 1) h1 (constant (F := Ideal) S0 .f32 0xFF800000#32))
          (Host.reduce (FloatOps.maximumf (F := Ideal) (φ := .f32)) z (constant (F := Ideal) S0 .f32 0xFF800000#32) h' hu))) (ix2 r q')
      = rowMax (fun k => z (ix2 r k)) := fun q' => by
    rw [spread_apply _ hs r q', column_apply _ hc r 0]
    show max negInf (Host.reduce (FloatOps.maximumf (F := Ideal) (φ := .f32)) z (constant (F := Ideal) S0 .f32 0xFF800000#32) h' hu (ix1 r)) = _
    rw [LibRowOps.hostRowMax_apply z _ h' h hu r]
    exact max_fold_max _ _
  unfold logSoftmax
  refine congrArg₂ (· - ·) ?_ ?_
  · exact congrArg (z (ix2 r q) - ·) (hM q)
  · refine (spread_apply _ hs r q).trans ?_
    show Ideal.log (broadcastInDim (s := ⟨1, ![a]⟩) ⟨2, ![a, 1]⟩ ![0] hc _ (ix2 r (0 : Fin 1))) = _
    refine congrArg Ideal.log ?_
    rw [column_apply _ hc r 0, hostRowSum_apply _ _ h' h hu r]
    show Ideal.ofBits .f32 0x00000000#32 + _ = _
    rw [Ideal.ofBits_zero_f32, zero_add]
    refine Finset.sum_congr rfl fun k _ => ?_
    exact congrArg (fun t => Ideal.exp (z (ix2 r k) - t)) (hM k)

end Cert.RefOps

end
-- ==== Proof.RefRow.lean ====
/-
  The reference's stages, one row at a time.

  Each stage of the reference, read at row `r`, depends on row `r` of the two feature arrays only, and is the
  corresponding piece of the row-wise function: the unit rows, the two clipped hidden rows, the two rows pushed through
  their own matrices, the 256-term pairing of the two laid end to end with the combining matrix (which splits into the
  two 128-term pairings the kernel adds), the gate, the blend, its unit row, the clipped last layer, and the logarithm
  of the softmax. So the array the reference picks rows out of is the score array.
-/
import proofs.«134171_j69106023793434_1_alg».proof.Proof.RefRead
import proofs.«134171_j69106023793434_1_alg».proof.Proof.RefOps
import proofs.«134171_j69106023793434_1_alg».proof.Proof.WholeArray

noncomputable section

open scoped BigOperators

namespace Cert.RefRow

open Idealize.ShloMosaic Idealize.ShloMosaic.ValueIdx Cert.ReferenceIdeal Cert.ReferenceIdeal.Gen Cert.ReferenceIdeal.Read
open Cert.RowSpec Cert.WholeArray

variable (X S : S200000x512.Idx → EReal) (W0 W1 : S128x512.Idx → EReal) (G1 G2 : S128x128.Idx → EReal)
  (GT : S128x256.Idx → EReal) (WC : S70x128.Idx → EReal)

/-- The first feature row brought to unit length. -/
theorem v7_apply (r : Fin 200000) (k : Fin 512) : val_main_v7 (F := Ideal) X (ix2 r k) = unit (row X r) k := by
  refine RefOps.unit_spread_apply X (val_main_v0 (F := Ideal) X) bcast_S_S200000x1 bcast_S200000x1_S200000x512_0_1 r k ?_
  exact RefOps.norm_column_apply X reducesTo_S200000x512_S200000_d1 (by decide : S200000x512.Reduces [1] S200000) h_S_
    bcast_S200000_S200000x1_0 r 0

/-- The second feature row brought to unit length. -/
theorem v15_apply (r : Fin 200000) (k : Fin 512) : val_main_v15 (F := Ideal) S (ix2 r k) = unit (row S r) k := by
  refine RefOps.unit_spread_apply S (val_main_v8 (F := Ideal) S) bcast_S_S200000x1 bcast_S200000x1_S200000x512_0_1 r k ?_
  exact RefOps.norm_column_apply S reducesTo_S200000x512_S200000_d1 (by decide : S200000x512.Reduces [1] S200000) h_S_
    bcast_S200000_S200000x1_0 r 0

/-- The first hidden row. -/
theorem v18_apply (r : Fin 200000) (j : Fin 128) :
    val_main_v18 (F := Ideal) X W0 (ix2 r j) = layer (row X r) (fun j => row W0 j) j := by
  show max (val_main_v17 (F := Ideal) X W0 (ix2 r j)) zero = _
  unfold layer relu
  refine congrArg (fun t => max t zero) ?_
  refine (RefOps.dot_transposed_apply dot_S200000x512_S512x128_S200000x128_1_0_0_1_n_n rfl rfl rfl rfl rfl rfl
    (val_main_v7 (F := Ideal) X) W0 transposes_S128x512_S512x128_1_0 r j).trans ?_
  exact congrArg (fun a => dot a (row W0 j)) (funext fun k => v7_apply X r k)

/-- The second hidden row. -/
theorem v21_apply (r : Fin 200000) (j : Fin 128) :
    val_main_v21 (F := Ideal) S W1 (ix2 r j) = layer (row S r) (fun j => row W1 j) j := by
  show max (val_main_v20 (F := Ideal) S W1 (ix2 r j)) zero = _
  unfold layer relu
  refine congrArg (fun t => max t zero) ?_
  refine (RefOps.dot_transposed_apply dot_S200000x512_S512x128_S200000x128_1_0_0_1_n_n rfl rfl rfl rfl rfl rfl
    (val_main_v15 (F := Ideal) S) W1 transposes_S128x512_S512x128_1_0 r j).trans ?_
  exact congrArg (fun a => dot a (row W1 j)) (funext fun k => v15_apply S r k)

/-- The two hidden rows pushed through their own matrices. -/
theorem v23_apply (r : Fin 200000) (j : Fin 128) :
    val_main_v23 (F := Ideal) X W0 G1 (ix2 r j) = dot (layer (row X r) (fun j => row W0 j)) (row G1 j) := by
  refine (RefOps.dot_transposed_apply dot_S200000x128_S128x128_S200000x128_1_0_0_1_n_n rfl rfl rfl rfl rfl rfl
    (val_main_v18 (F := Ideal) X W0) G1 transposes_S128x128_S128x128_1_0 r j).trans ?_
  exact congrArg (fun a => dot a (row G1 j)) (funext fun k => v18_apply X W0 r k)
theorem v25_apply (r : Fin 200000) (j : Fin 128) :
    val_main_v25 (F := Ideal) S W1 G2 (ix2 r j) = dot (layer (row S r) (fun j => row W1 j)) (row G2 j) := by
  refine (RefOps.dot_transposed_apply dot_S200000x128_S128x128_S200000x128_1_0_0_1_n_n rfl rfl rfl rfl rfl rfl
    (val_main_v21 (F := Ideal) S W1) G2 transposes_S128x128_S128x128_1_0 r j).trans ?_
  exact congrArg (fun a => dot a (row G2 j)) (funext fun k => v21_apply S W1 r k)

/-- The two laid end to end: the first 128 columns are the first, the last 128 the second. -/
theorem v26_left (r : Fin 200000) (k : Fin 128) :
    val_main_v26 (F := Ideal) X S W0 W1 G1 G2 (ix2 r (Fin.castAdd 128 k)) = val_main_v23 (F := Ideal) X W0 G1 (ix2 r k) :=
  concatenate_pair_apply_left (1 : Fin S200000x256.rank) _ _ concatenates_S200000x128_S200000x128_S200000x256_d1
    (ix2 r (Fin.castAdd 128 k)) rfl (ix2 r k) fun b => by
      match b with
      | ⟨0, _⟩ => rfl
      | ⟨1, _⟩ => rfl
theorem v26_right (r : Fin 200000) (k : Fin 128) :
    val_main_v26 (F := Ideal) X S W0 W1 G1 G2 (ix2 r (Fin.natAdd 128 k)) = val_main_v25 (F := Ideal) S W1 G2 (ix2 r k) :=
  concatenate_pair_apply_right (1 : Fin S200000x256.rank) _ _ concatenates_S200000x128_S200000x128_S200000x256_d1
    (ix2 r (Fin.natAdd 128 k)) rfl rfl (ix2 r k) (fun b hb => by
      match b with
      | ⟨0, _⟩ => rfl
      | ⟨1, _⟩ => exact absurd rfl hb) (by show k.val + 128 = 128 + k.val; omega)

/-- The 256-term pairing with the combining matrix is the sum of the two 128-term pairings with its halves. -/
theorem v28_apply (r : Fin 200000) (j : Fin 128) :
    val_main_v28 (F := Ideal) X S W0 W1 G1 G2 GT (ix2 r j)
      = dot (fun k => dot (layer (row X r) (fun j => row W0 j)) (row G1 k)) (fun k => GT (ix2 j (Fin.castAdd 128 k)))
        + dot (fun k => dot (layer (row S r) (fun j => row W1 j)) (row G2 k)) (fun k => GT (ix2 j (Fin.natAdd 128 k))) := by
  refine (RefOps.dot_transposed_apply dot_S200000x256_S256x128_S200000x128_1_0_0_1_n_n rfl rfl rfl rfl rfl rfl
    (val_main_v26 (F := Ideal) X S W0 W1 G1 G2) GT transposes_S128x256_S256x128_1_0 r j).trans ?_
  exact dot_append (n := 128) (m := 128) _ _ (fun k => GT (ix2 j k))
    (fun k => val_main_v26 (F := Ideal) X S W0 W1 G1 G2 (ix2 r k))
    (fun k => (v26_left X S W0 W1 G1 G2 r k).trans (v23_apply X W0 G1 r k))
    (fun k => (v26_right X S W0 W1 G1 G2 r k).trans (v25_apply S W1 G2 r k))

/-- The gate. -/
theorem v34_apply (r : Fin 200000) (j : Fin 128) :
    val_main_v34 (F := Ideal) X S W0 W1 G1 G2 GT (ix2 r j)
      = gate (layer (row X r) (fun j => row W0 j)) (layer (row S r) (fun j => row W1 j)) (fun j => row G1 j) (fun j => row G2 j)
          (fun j k => GT (ix2 j (Fin.castAdd 128 k))) (fun j k => GT (ix2 j (Fin.natAdd 128 k))) j := by
  show Ideal.div one (one + Ideal.exp (-(val_main_v28 (F := Ideal) X S W0 W1 G1 G2 GT (ix2 r j)))) = _
  rw [v28_apply]
  rfl

/-- The blend of the two hidden rows. -/
theorem v39_apply (r : Fin 200000) (j : Fin 128) :
    val_main_v39 (F := Ideal) X S W0 W1 G1 G2 GT (ix2 r j)
      = blend (gate (layer (row X r) (fun j => row W0 j)) (layer (row S r) (fun j => row W1 j)) (fun j => row G1 j)
          (fun j => row G2 j) (fun j k => GT (ix2 j (Fin.castAdd 128 k))) (fun j k => GT (ix2 j (Fin.natAdd 128 k))))
          (layer (row X r) (fun j => row W0 j)) (layer (row S r) (fun j => row W1 j)) j := by
  show (one - val_main_v34 (F := Ideal) X S W0 W1 G1 G2 GT (ix2 r j)) * val_main_v18 (F := Ideal) X W0 (ix2 r j)
      + val_main_v34 (F := Ideal) X S W0 W1 G1 G2 GT (ix2 r j) * val_main_v21 (F := Ideal) S W1 (ix2 r j) = _
  rw [v34_apply, v18_apply, v21_apply]
  rfl

/-- The blend brought to unit length. -/
theorem v47_apply (r : Fin 200000) (k : Fin 128) :
    val_main_v47 (F := Ideal) X S W0 W1 G1 G2 GT (ix2 r k)
      = unit (blend (gate (layer (row X r) (fun j => row W0 j)) (layer (row S r) (fun j => row W1 j)) (fun j => row G1 j)
          (fun j => row G2 j) (fun j k => GT (ix2 j (Fin.castAdd 128 k))) (fun j k => GT (ix2 j (Fin.natAdd 128 k))))
          (layer (row X r) (fun j => row W0 j)) (layer (row S r) (fun j => row W1 j))) k := by
  have hrow : (fun k => val_main_v39 (F := Ideal) X S W0 W1 G1 G2 GT (ix2 r k))
      = blend (gate (layer (row X r) (fun j => row W0 j)) (layer (row S r) (fun j => row W1 j)) (fun j => row G1 j)
          (fun j => row G2 j) (fun j k => GT (ix2 j (Fin.castAdd 128 k))) (fun j k => GT (ix2 j (Fin.natAdd 128 k))))
          (layer (row X r) (fun j => row W0 j)) (layer (row S r) (fun j => row W1 j)) :=
    funext fun k => v39_apply X S W0 W1 G1 G2 GT r k
  rw [← hrow]
  refine RefOps.unit_spread_apply (val_main_v39 (F := Ideal) X S W0 W1 G1 G2 GT) (val_main_v40 (F := Ideal) X S W0 W1 G1 G2 GT)
    bcast_S_S200000x1 bcast_S200000x1_S200000x128_0_1 r k ?_
  exact RefOps.norm_column_apply (val_main_v39 (F := Ideal) X S W0 W1 G1 G2 GT) reducesTo_S200000x128_S200000_d1
    (by decide : S200000x128.Reduces [1] S200000) h_S_ bcast_S200000_S200000x1_0 r 0

/-- The clipped last layer. -/
theorem v50_apply (r : Fin 200000) (q : Fin 70) :
    val_main_v50 (F := Ideal) X S W0 W1 G1 G2 GT WC (ix2 r q)
      = layer (blend (gate (layer (row X r) (fun j => row W0 j)) (layer (row S r) (fun j => row W1 j)) (fun j => row G1 j)
          (fun j => row G2 j) (fun j k => GT (ix2 j (Fin.castAdd 128 k))) (fun j k => GT (ix2 j (Fin.natAdd 128 k))))
          (layer (row X r) (fun j => row W0 j)) (layer (row S r) (fun j => row W1 j))) (fun j => row WC j) q := by
  show max (val_main_v49 (F := Ideal) X S W0 W1 G1 G2 GT WC (ix2 r q)) zero = _
  unfold layer relu
  refine congrArg (fun t => max t zero) ?_
  refine (RefOps.dot_transposed_apply dot_S200000x128_S128x70_S200000x70_1_0_0_1_n_n rfl rfl rfl rfl rfl rfl
    (val_main_v47 (F := Ideal) X S W0 W1 G1 G2 GT) WC transposes_S70x128_S128x70_1_0 r q).trans ?_
  exact congrArg (fun a => dot a (row WC q)) (funext fun k => v47_apply X S W0 W1 G1 G2 GT r k)

/-- The array the reference picks rows out of is the score array. -/
theorem v51_eq : val_main_v51 (F := Ideal) X S W0 W1 G1 G2 GT WC = scores X S W0 W1 G1 G2 GT WC := by
  funext i
  obtain ⟨r, q, rfl⟩ : ∃ (r : Fin 200000) (q : Fin 70), i = ix2 r q := ⟨i 0, i 1, eq_ix2 i⟩
  rw [scores_apply]
  refine (RefOps.logSoftmax_apply (val_main_v50 (F := Ideal) X S W0 W1 G1 G2 GT WC) reducesTo_S200000x70_S200000_d1
    (by decide : S200000x70.Reduces [1] S200000) h_S_ bcast_S_S200000 bcast_S200000_S200000x1_0
    bcast_S200000x1_S200000x70_0_1 r q).trans ?_
  unfold out
  exact congrArg (fun z => logSoftmax z q) (funext fun q' => v50_apply X S W0 W1 G1 G2 GT WC r q')

end Cert.RefRow

end
-- ==== Proof.lean ====
/-
  The kernel and its reference compute the same picked rows of one score array.

  Both programs treat the 200000 rows independently. Row `r` of each feature array is scaled to unit length (by the
  reciprocal of its length when that is positive, by zero otherwise), pushed through a linear layer and clipped at zero;
  the two hidden rows are pushed through one more matrix each, combined by a third matrix and passed through the
  logistic function; that gate blends the two hidden rows; the blend is scaled to unit length, pushed through the last
  matrix, clipped at zero, and the logarithm of its softmax is taken. The result is a 200000 × 70 array of scores, and
  both programs end by picking the rows a vector of row numbers names (a negative number counted from the end).

  The kernel computes the scores 2000 rows at a time, one block per grid point, each block a function of the same 2000
  rows of the feature arrays and of the whole weight matrices; the blocks tile the array, so the array it leaves is the
  score array (KernelRow, KernelValue). The reference computes the score array whole (RefRow). The two spell three steps
  differently — the kernel negates by subtracting from zero, pairs the two pushed-through rows with the two halves of
  the combining matrix and adds where the reference lays them end to end and pairs once with the whole matrix, and the
  reference takes the row maximum against minus infinity once more — and each pair of spellings is one value on the
  whole of the extended reals (RowSpec), so the agreement does not use that the inputs are finite. A change of float
  format on the way into a matrix product is the identity on the extended reals, and a matrix product is the same sum
  whichever unit computes it. The picking of rows is the same text in both programs.

  The word-level kernel and the idealized kernel terminate with their arguments unchanged by their generated frames; the
  reference by its run; the ideal pass rewrote nothing, so the kernel's idealization is its own text.
-/
import proofs.«134171_j69106023793434_1_alg».proof.Defs
import proofs.«134171_j69106023793434_1_alg».proof.Proof.Gen.Kernel
import proofs.«134171_j69106023793434_1_alg».proof.Proof.Gen.Kernel.Skeleton
import proofs.«134171_j69106023793434_1_alg».proof.Proof.Gen.Kernel.Launch
import proofs.«134171_j69106023793434_1_alg».proof.Proof.Gen.Kernel.Points
import proofs.«134171_j69106023793434_1_alg».proof.Proof.Gen.Kernel.Frame
import proofs.«134171_j69106023793434_1_alg».proof.Proof.Gen.KernelIdeal
import proofs.«134171_j69106023793434_1_alg».proof.Proof.Gen.KernelIdeal.Skeleton
import proofs.«134171_j69106023793434_1_alg».proof.Proof.Gen.KernelIdeal.Launch
import proofs.«134171_j69106023793434_1_alg».proof.Proof.Gen.KernelIdeal.Points
import proofs.«134171_j69106023793434_1_alg».proof.Proof.Gen.KernelIdeal.Frame
import proofs.«134171_j69106023793434_1_alg».proof.Proof.Gen.ReferenceIdeal
import proofs.«134171_j69106023793434_1_alg».proof.Proof.Gen.Pre_finite_inputs
import proofs.«134171_j69106023793434_1_alg».proof.Proof.KernelValue
import proofs.«134171_j69106023793434_1_alg».proof.Proof.RefRow
import Idealize.ShloMosaic.Adequacy
import Idealize.ShloMosaic.Init

noncomputable section

namespace Cert.Proof

open Idealize.ShloMosaic Idealize.SL.Sem

/-- The word-level kernel terminates with its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the rows picked out of the score array of those
    arguments: the kernel by its blocks, the reference by its stages. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v58_eq, h0, h1, h2, h3, h4, h5, h6, h7, h8]
  unfold Cert.ReferenceIdeal.Read.val_main_v58
  rw [Cert.RefRow.v51_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
